-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4097x32 : Shape := ⟨3, ![256, 4097, 32]⟩
abbrev S4096x16 : Shape := ⟨2, ![4096, 16]⟩
abbrev S4096x32 : Shape := ⟨2, ![4096, 32]⟩
abbrev S32x32 : Shape := ⟨2, ![32, 32]⟩
abbrev S32x16 : Shape := ⟨2, ![32, 16]⟩
abbrev S32 : Shape := ⟨1, ![32]⟩
abbrev S_ : Shape := ⟨0, ![]⟩

class Facts : Prop where
  bcast_S_S256x4097x32 : S_.BroadcastsInDim S256x4097x32 (![] : Fin 0 → Fin S256x4097x32.rank)
  reducesTo_S256x4097x32_S_d0_1_2 : S256x4097x32.ReducesTo [0, 1, 2] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S4096x32 : S_.BroadcastsInDim S4096x32 (![] : Fin 0 → Fin S4096x32.rank)
  reducesTo_S4096x32_S_d0_1 : S4096x32.ReducesTo [0, 1] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  main_v53

def fn_part2 {F : FTy → Type} [FloatOps F] (main_arg7 : FVec F S32x16 .f32) (main_arg8 : FVec F S32 .f32) (main_arg9 : FVec F S32 .f32) (main_arg10 : FVec F S32 .f32) (main_v33 : IVec S_ 1) : IVec S_ 1 :=
  let main_v34 : FVec F S32x16 .f32 := Host.absf main_arg7
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_v48 main_v49 main_v50

def fn_part1 {F : FTy → Type} [FloatOps F] (main_arg4 : FVec F S32x16 .f32) (main_arg5 : FVec F S32 .f32) (main_arg6 : FVec F S32x32 .f32) (main_arg7 : FVec F S32x16 .f32) (main_arg8 : FVec F S32 .f32) (main_arg9 : FVec F S32 .f32) (main_arg10 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S256x4097x32 .f32) (main_arg1 : FVec F S4096x16 .f32) (main_arg2 : FVec F S4096x32 .f32) (main_arg3 : FVec F S32x32 .f32) (main_arg4 : FVec F S32x16 .f32) (main_arg5 : FVec F S32 .f32) (main_arg6 : FVec F S32x32 .f32) (main_arg7 : FVec F S32x16 .f32) (main_arg8 : FVec F S32 .f32) (main_arg9 : FVec F S32 .f32) (main_arg10 : FVec F S32 .f32) : IVec S_ 1 :=
  let main_v0 : FVec F S256x4097x32 .f32 := Host.absf main_arg0
  let main_cst : FVec F S_ .f32 := constant S_ .f32 0x7F800000#32
  let main_v1 : FVec F S256x4097x32 .f32 := broadcastInDim S256x4097x32 ![] bcast_S_S256x4097x32 main_cst
  let main_v2 : IVec S256x4097x32 1 := cmpf .olt main_v0 main_v1
  let main_c : IVec S_ 1 := constantI S_ 1 1#1
  let main_v3 : IVec S_ 1 := (fun x v => Host.reduce IntOp.andi x v reducesTo_S256x4097x32_S_d0_1_2 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S4096x32 .f32 := Host.absf main_arg2
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_arg6 main_arg7 main_arg8 main_arg9 main_arg10 main_v13 main_v16
-- ==== Kernel.lean ====
abbrev S256x4097x32 : Shape := ⟨3, ![256, 4097, 32]⟩
abbrev S4096x16 : Shape := ⟨2, ![4096, 16]⟩
abbrev S4096x32 : Shape := ⟨2, ![4096, 32]⟩
abbrev S32x32 : Shape := ⟨2, ![32, 32]⟩
abbrev S32x16 : Shape := ⟨2, ![32, 16]⟩
abbrev S32 : Shape := ⟨1, ![32]⟩
abbrev S16x32 : Shape := ⟨2, ![16, 32]⟩
abbrev S1x32 : Shape := ⟨2, ![1, 32]⟩
abbrev S256x1 : Shape := ⟨2, ![256, 1]⟩
abbrev S8x4097x32 : Shape := ⟨3, ![8, 4097, 32]⟩
abbrev S8x1 : Shape := ⟨2, ![8, 1]⟩
abbrev S1x1x32 : Shape := ⟨3, ![1, 1, 32]⟩
abbrev S8x1x32 : Shape := ⟨3, ![8, 1, 32]⟩
abbrev S8x32 : Shape := ⟨2, ![8, 32]⟩
abbrev S8 : Shape := ⟨1, ![8]⟩
abbrev S8x128x32 : Shape := ⟨3, ![8, 128, 32]⟩
abbrev S8x127x32 : Shape := ⟨3, ![8, 127, 32]⟩
abbrev S128x16 : Shape := ⟨2, ![128, 16]⟩
abbrev S128x32 : Shape := ⟨2, ![128, 32]⟩
abbrev S1024x32 : Shape := ⟨2, ![1024, 32]⟩
abbrev S1x128x32 : Shape := ⟨3, ![1, 128, 32]⟩
abbrev S8x128 : Shape := ⟨2, ![8, 128]⟩
abbrev S256 : Shape := ⟨1, ![256]⟩

abbrev nBuf : Space → Nat
  | .hbm => 21
  | .vmem => 13
  | .smem => 0
  | _ => 0

abbrev bufTy : (tb : Table) → Fin (tcTables nBuf tb) → BufTy
  | .hbm, ⟨0, _⟩ => ⟨S256x4097x32, .f32⟩
  | .hbm, ⟨1, _⟩ => ⟨S4096x16, .f32⟩
  | .hbm, ⟨2, _⟩ => ⟨S4096x32, .f32⟩
  | .hbm, ⟨3, _⟩ => ⟨S32x32, .f32⟩
  | .hbm, ⟨4, _⟩ => ⟨S32x16, .f32⟩
  | .hbm, ⟨5, _⟩ => ⟨S32, .f32⟩
  | .hbm, ⟨6, _⟩ => ⟨S32x32, .f32⟩
  | .hbm, ⟨7, _⟩ => ⟨S32x16, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S32x32, .f32⟩
  | .hbm, ⟨12, _⟩ => ⟨S32x32, .f32⟩
  | .hbm, ⟨13, _⟩ => ⟨S16x32, .f32⟩
  | .hbm, ⟨14, _⟩ => ⟨S16x32, .f32⟩
  | .hbm, ⟨15, _⟩ => ⟨S1x32, .f32⟩
  | .hbm, ⟨16, _⟩ => ⟨S1x32, .f32⟩
  | .hbm, ⟨17, _⟩ => ⟨S1x32, .f32⟩
  | .hbm, ⟨18, _⟩ => ⟨S1x32, .f32⟩
  | .hbm, ⟨19, _⟩ => ⟨S256x1, .f32⟩
  | .hbm, ⟨20, _⟩ => ⟨S256, .f32⟩
  | .local _ .vmem, ⟨0, _⟩ => ⟨S8x4097x32, .f32⟩
  | .local _ .vmem, ⟨1, _⟩ => ⟨S4096x16, .f32⟩
  | .local _ .vmem, ⟨2, _⟩ => ⟨S4096x32, .f32⟩
  | .local _ .vmem, ⟨3, _⟩ => ⟨S32x32, .f32⟩
  | .local _ .vmem, ⟨4, _⟩ => ⟨S16x32, .f32⟩
  | .local _ .vmem, ⟨5, _⟩ => ⟨S32x32, .f32⟩
  | .local _ .vmem, ⟨6, _⟩ => ⟨S16x32, .f32⟩
  | .local _ .vmem, ⟨7, _⟩ => ⟨S1x32, .f32⟩
  | .local _ .vmem, ⟨8, _⟩ => ⟨S1x32, .f32⟩
  | .local _ .vmem, ⟨9, _⟩ => ⟨S1x32, .f32⟩
  | .local _ .vmem, ⟨10, _⟩ => ⟨S1x32, .f32⟩
  | .local _ .vmem, ⟨11, _⟩ => ⟨S8x1, .f32⟩
  | .local _ .vmem, ⟨12, _⟩ => ⟨S8x1, .f32⟩
  | _, _ => ⟨S256x4097x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg11_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem11_1 : DmaSem sig := 12

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c32_i32 : BitVec 32 := 32#32
  let v40 : BitVec 32 := Scalar.addi c0_i32 c32_i32
  let c1_i32 : BitVec 32 := 1#32
  ⟨c0_i32, v40, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c128_i32 : BitVec 32 := 128#32
  let v45 : BitVec 32 := Scalar.muli arg13 c128_i32
  v45
def k0_mult2 (k0_t1 : Fin k0_t1_loop.trips) : BitVec 32 :=
  let c0_i32 : BitVec 32 := 0#32
  let c1_i32 : BitVec 32 := 1#32
  let arg13 : BitVec 32 := Scf.iv c0_i32 c1_i32 k0_t1
  let c128_i32 : BitVec 32 := 128#32
  let v45 : BitVec 32 := Scalar.muli arg13 c128_i32
  let v46 : BitVec 32 := v45
  let c128_i32_25 : BitVec 32 := 128#32
  let v47 : BitVec 32 := Scalar.addi v46 c128_i32_25
  v47
def k0_off1 (k0_t1 : Fin k0_t1_loop.trips) : Fin 3 → Nat :=
  let c0_26 : Index := 0#32
  let c0_i32 : BitVec 32 := 0#32
  let c1_i32 : BitVec 32 := 1#32
  let arg13 : BitVec 32 := Scf.iv c0_i32 c1_i32 k0_t1
  let c128_i32 : BitVec 32 := 128#32
  let v45 : BitVec 32 := Scalar.muli arg13 c128_i32
  let v46 : BitVec 32 := v45
  let v49 : Index := Scalar.indexCast v46
  let c0_27 : Index := 0#32
  ![0, v49.toNat, 0]
def k0_off2 (k0_t1 : Fin k0_t1_loop.trips) : Fin 3 → Nat :=
  let c0_28 : Index := 0#32
  let c0_i32 : BitVec 32 := 0#32
  let c1_i32 : BitVec 32 := 1#32
  let arg13 : BitVec 32 := Scf.iv c0_i32 c1_i32 k0_t1
  let c128_i32 : BitVec 32 := 128#32
  let v45 : BitVec 32 := Scalar.muli arg13 c128_i32
  let v46 : BitVec 32 := v45
  let c128_i32_25 : BitVec 32 := 128#32
  let v47 : BitVec 32 := Scalar.addi v46 c128_i32_25
  let v48 : BitVec 32 := v47
  let v51 : Index := Scalar.indexCast v48
  let c0_29 : Index := 0#32
  ![0, v51.toNat, 0]
def k0_off3 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v45 : BitVec 32 := Scalar.muli arg13 c128_i32
  let v46 : BitVec 32 := v45
  let v55 : Index := Scalar.indexCast v46
  let c0_30 : Index := 0#32
  ![v55.toNat, 0]
def k0_off4 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v45 : BitVec 32 := Scalar.muli arg13 c128_i32
  let v46 : BitVec 32 := v45
  let v57 : Index := Scalar.indexCast v46
  let c0_31 : Index := 0#32
  ![v57.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4097x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S32x32_S32x32_1_0 : S32x32.Transposes [1, 0] S32x32
  transposes_S32x16_S16x32_1_0 : S32x16.Transposes [1, 0] S16x32
  shapeCasts_S32_S1x32 : S32.ShapeCasts S1x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  shapeCasts_S1x32_S1x1x32 : S1x32.ShapeCasts S1x1x32
  inb_S8x4097x32_S8x1x32_0_0_0 : ∀ a, (![0, 0, 0] : Fin 3 → Nat) a + S8x1x32.size a ≤ S8x4097x32.size a
  h_S8x1x32 : 0 < S8x1x32.numel
  shapeCasts_S8x1x32_S8x32 : S8x1x32.ShapeCasts S8x32
  broadcasts_S1x32_S8x32 : S1x32.Broadcasts S8x32
  reduces_S8x32_S8 : S8x32.Reduces [1] S8
  h_S8x128x32 : 0 < S8x128x32.numel
  slices_S8x128x32_o0_1_0_S8x127x32 : S8x128x32.Slices ![0, 1, 0] S8x127x32
  concatenates_S8x127x32_S8x1x32_S8x128x32_d1 : Shape.Concatenates [S8x127x32, S8x1x32] S8x128x32 1
  h_S128x16 : 0 < S128x16.numel
  h_S128x32 : 0 < S128x32.numel
  shapeCasts_S8x128x32_S1024x32 : S8x128x32.ShapeCasts S1024x32
  shapeCasts_S1024x32_S8x128x32 : S1024x32.ShapeCasts S8x128x32
  shapeCasts_S128x32_S1x128x32 : S128x32.ShapeCasts S1x128x32
  broadcasts_S1x128x32_S8x128x32 : S1x128x32.Broadcasts S8x128x32
  broadcasts_S1x1x32_S8x128x32 : S1x1x32.Broadcasts S8x128x32
  reduces_S8x128x32_S8x128 : S8x128x32.Reduces [2] S8x128
  reduces_S8x128_S8 : S8x128.Reduces [1] S8
  shapeCasts_S8_S8x1 : S8.ShapeCasts S8x1
  inb_S8x1_S8x1_0_0 : ∀ a, (![0, 0] : Fin 2 → Nat) a + S8x1.size a ≤ S8x1.size a
  h_S8x1 : 0 < S8x1.numel
  shapeCasts_S256x1_S256 : S256x1.ShapeCasts S256
  dot_S1024x32_S32x32_S1024x32_1_0_0_1_n_n_wf : DotDims.WF S1024x32 S32x32 S1024x32 [1] [0] [0] [1] [] []
  dot_S128x16_S16x32_S128x32_1_0_0_1_n_n_wf : DotDims.WF S128x16 S16x32 S128x32 [1] [0] [0] [1] [] []
  hrank0 : 0 < grid0.rank
  k0_t1_ok : k0_t1_loop.OK
  k0_mult1_dvd : ∀ k0_t1 : Fin k0_t1_loop.trips, 128 ∣ (k0_mult1 k0_t1).toNat
  k0_mult2_dvd : ∀ k0_t1 : Fin k0_t1_loop.trips, 128 ∣ (k0_mult2 k0_t1).toNat
  k0_off1_inb : ∀ k0_t1 : Fin k0_t1_loop.trips, ∀ a, (k0_off1 k0_t1) a + S8x128x32.size a ≤ S8x4097x32.size a
  k0_off2_inb : ∀ k0_t1 : Fin k0_t1_loop.trips, ∀ a, (k0_off2 k0_t1) a + S8x1x32.size a ≤ S8x4097x32.size a
  k0_off3_inb : ∀ k0_t1 : Fin k0_t1_loop.trips, ∀ a, (k0_off3 k0_t1) a + S128x16.size a ≤ S4096x16.size a
  k0_off4_inb : ∀ k0_t1 : Fin k0_t1_loop.trips, ∀ a, (k0_off4 k0_t1) a + S128x32.size a ≤ S4096x32.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x4097x32.size a ≤ S256x4097x32.size a
  hwx0_0 : ∀ i : grid0.Coords, EltTy.bits .f32 = 32 ∨ (Rect.block (s := S256x4097x32) S8x4097x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S4096x16.size a
  hwx0_1 : ∀ i : grid0.Coords, EltTy.bits .f32 = 32 ∨ (Rect.block (s := S4096x16) S4096x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x32.size a ≤ S4096x32.size a
  hwx0_2 : ∀ i : grid0.Coords, EltTy.bits .f32 = 32 ∨ (Rect.block (s := S4096x32) S4096x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x32.size a ≤ S16x32.size a
  hwx0_4 : ∀ i : grid0.Coords, EltTy.bits .f32 = 32 ∨ (Rect.block (s := S16x32) S16x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x32.size a ≤ S16x32.size a
  hwx0_6 : ∀ i : grid0.Coords, EltTy.bits .f32 = 32 ∨ (Rect.block (s := S16x32) S16x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x1.size a ≤ S256x1.size a
  hwx0_11 : ∀ i : grid0.Coords, EltTy.bits .f32 = 32 ∨ (Rect.block (s := S256x1) S8x1.size (cc0_transform_11 i) (hinb0_11 i)).WholeWords (EltTy.packing .f32)

variable [Facts₀]

def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S128x16_S16x32_S128x32_1_0_0_1_n_n : DotDims S128x16 S16x32 S128x32 where
  lhsContracting := [1]
  rhsContracting := [0]
  lhsNonContracting := [0]
  rhsNonContracting := [1]
  lhsBatch := []
  rhsBatch := []
  wf := dot_S128x16_S16x32_S128x32_1_0_0_1_n_n_wf

abbrev win0_0 : Pipeline.Window sig grid0 :=
  Pipeline.Window.ofSpec (Memref.whole main_arg0) S8x4097x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S16x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S16x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S8x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S256x4097x32 : Shape := ⟨3, ![256, 4097, 32]⟩
abbrev S4096x16 : Shape := ⟨2, ![4096, 16]⟩
abbrev S4096x32 : Shape := ⟨2, ![4096, 32]⟩
abbrev S32x32 : Shape := ⟨2, ![32, 32]⟩
abbrev S32x16 : Shape := ⟨2, ![32, 16]⟩
abbrev S32 : Shape := ⟨1, ![32]⟩
abbrev S256x1x32 : Shape := ⟨3, ![256, 1, 32]⟩
abbrev S256x32 : Shape := ⟨2, ![256, 32]⟩
abbrev S1x32 : Shape := ⟨2, ![1, 32]⟩
abbrev S_ : Shape := ⟨0, ![]⟩
abbrev S256 : Shape := ⟨1, ![256]⟩
abbrev S256x4096x32 : Shape := ⟨3, ![256, 4096, 32]⟩
abbrev S16x32 : Shape := ⟨2, ![16, 32]⟩
abbrev S1x4096x32 : Shape := ⟨3, ![1, 4096, 32]⟩
abbrev S1x1x32 : Shape := ⟨3, ![1, 1, 32]⟩
abbrev S256x4096 : Shape := ⟨2, ![256, 4096]⟩

abbrev nBuf : Space → Nat
  | .hbm => 89
  | .vmem => 0
  | .smem => 0
  | _ => 0

abbrev bufTy : (tb : Table) → Fin (tcTables nBuf tb) → BufTy
  | .hbm, ⟨0, _⟩ => ⟨S256x4097x32, .f32⟩
  | .hbm, ⟨1, _⟩ => ⟨S4096x16, .f32⟩
  | .hbm, ⟨2, _⟩ => ⟨S4096x32, .f32⟩
  | .hbm, ⟨3, _⟩ => ⟨S32x32, .f32⟩
  | .hbm, ⟨4, _⟩ => ⟨S32x16, .f32⟩
  | .hbm, ⟨5, _⟩ => ⟨S32, .f32⟩
  | .hbm, ⟨6, _⟩ => ⟨S32x32, .f32⟩
  | .hbm, ⟨7, _⟩ => ⟨S32x16, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S256x1x32, .f32⟩
  | .hbm, ⟨12, _⟩ => ⟨S256x32, .f32⟩
  | .hbm, ⟨13, _⟩ => ⟨S1x32, .f32⟩
  | .hbm, ⟨14, _⟩ => ⟨S256x32, .f32⟩
  | .hbm, ⟨15, _⟩ => ⟨S256x32, .f32⟩
  | .hbm, ⟨16, _⟩ => ⟨S256x32, .f32⟩
  | .hbm, ⟨17, _⟩ => ⟨S32, .f32⟩
  | .hbm, ⟨18, _⟩ => ⟨S32, .f32⟩
  | .hbm, ⟨19, _⟩ => ⟨S1x32, .f32⟩
  | .hbm, ⟨20, _⟩ => ⟨S256x32, .f32⟩
  | .hbm, ⟨21, _⟩ => ⟨S256x32, .f32⟩
  | .hbm, ⟨22, _⟩ => ⟨S1x32, .f32⟩
  | .hbm, ⟨23, _⟩ => ⟨S256x32, .f32⟩
  | .hbm, ⟨24, _⟩ => ⟨S256x32, .f32⟩
  | .hbm, ⟨25, _⟩ => ⟨S_, .f32⟩
  | .hbm, ⟨26, _⟩ => ⟨S256x32, .f32⟩
  | .hbm, ⟨27, _⟩ => ⟨S256x32, .f32⟩
  | .hbm, ⟨28, _⟩ => ⟨S_, .f32⟩
  | .hbm, ⟨29, _⟩ => ⟨S256, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S256x4096x32, .f32⟩
  | .hbm, ⟨34, _⟩ => ⟨S256x4096x32, .f32⟩
  | .hbm, ⟨35, _⟩ => ⟨S256x4096x32, .f32⟩
  | .hbm, ⟨36, _⟩ => ⟨S16x32, .f32⟩
  | .hbm, ⟨37, _⟩ => ⟨S4096x32, .f32⟩
  | .hbm, ⟨38, _⟩ => ⟨S1x4096x32, .f32⟩
  | .hbm, ⟨39, _⟩ => ⟨S256x4096x32, .f32⟩
  | .hbm, ⟨40, _⟩ => ⟨S256x4096x32, .f32⟩
  | .hbm, ⟨41, _⟩ => ⟨S256x4096x32, .f32⟩
  | .hbm, ⟨42, _⟩ => ⟨S256x4096x32, .f32⟩
  | .hbm, ⟨43, _⟩ => ⟨S32, .f32⟩
  | .hbm, ⟨44, _⟩ => ⟨S32, .f32⟩
  | .hbm, ⟨45, _⟩ => ⟨S1x1x32, .f32⟩
  | .hbm, ⟨46, _⟩ => ⟨S256x4096x32, .f32⟩
  | .hbm, ⟨47, _⟩ => ⟨S256x4096x32, .f32⟩
  | .hbm, ⟨48, _⟩ => ⟨S1x1x32, .f32⟩
  | .hbm, ⟨49, _⟩ => ⟨S256x4096x32, .f32⟩
  | .hbm, ⟨50, _⟩ => ⟨S256x4096x32, .f32⟩
  | .hbm, ⟨51, _⟩ => ⟨S_, .f32⟩
  | .hbm, ⟨52, _⟩ => ⟨S256x4096x32, .f32⟩
  | .hbm, ⟨53, _⟩ => ⟨S256x4096x32, .f32⟩
  | .hbm, ⟨54, _⟩ => ⟨S_, .f32⟩
  | .hbm, ⟨55, _⟩ => ⟨S256x4096, .f32⟩
  | .hbm, ⟨56, _⟩ => ⟨S_, .f32⟩
  | .hbm, ⟨57, _⟩ => ⟨S256x4096, .f32⟩
  | .hbm, ⟨58, _⟩ => ⟨S256x4096, .f32⟩
  | .hbm, ⟨59, _⟩ => ⟨S256x4096x32, .f32⟩
  | .hbm, ⟨60, _⟩ => ⟨S16x32, .f32⟩
  | .hbm, ⟨61, _⟩ => ⟨S4096x32, .f32⟩
  | .hbm, ⟨62, _⟩ => ⟨S1x4096x32, .f32⟩
  | .hbm, ⟨63, _⟩ => ⟨S256x4096x32, .f32⟩
  | .hbm, ⟨64, _⟩ => ⟨S256x4096x32, .f32⟩
  | .hbm, ⟨65, _⟩ => ⟨S1x4096x32, .f32⟩
  | .hbm, ⟨66, _⟩ => ⟨S256x4096x32, .f32⟩
  | .hbm, ⟨67, _⟩ => ⟨S256x4096x32, .f32⟩
  | .hbm, ⟨68, _⟩ => ⟨S256x4096x32, .f32⟩
  | .hbm, ⟨69, _⟩ => ⟨S32, .f32⟩
  | .hbm, ⟨70, _⟩ => ⟨S32, .f32⟩
  | .hbm, ⟨71, _⟩ => ⟨S1x1x32, .f32⟩
  | .hbm, ⟨72, _⟩ => ⟨S256x4096x32, .f32⟩
  | .hbm, ⟨73, _⟩ => ⟨S256x4096x32, .f32⟩
  | .hbm, ⟨74, _⟩ => ⟨S1x1x32, .f32⟩
  | .hbm, ⟨75, _⟩ => ⟨S256x4096x32, .f32⟩
  | .hbm, ⟨76, _⟩ => ⟨S256x4096x32, .f32⟩
  | .hbm, ⟨77, _⟩ => ⟨S_, .f32⟩
  | .hbm, ⟨78, _⟩ => ⟨S256x4096x32, .f32⟩
  | .hbm, ⟨79, _⟩ => ⟨S256x4096x32, .f32⟩
  | .hbm, ⟨80, _⟩ => ⟨S_, .f32⟩
  | .hbm, ⟨81, _⟩ => ⟨S256x4096, .f32⟩
  | .hbm, ⟨82, _⟩ => ⟨S_, .f32⟩
  | .hbm, ⟨83, _⟩ => ⟨S256x4096, .f32⟩
  | .hbm, ⟨84, _⟩ => ⟨S256x4096, .f32⟩
  | .hbm, ⟨85, _⟩ => ⟨S256x4096, .f32⟩
  | .hbm, ⟨86, _⟩ => ⟨S_, .f32⟩
  | .hbm, ⟨87, _⟩ => ⟨S256, .f32⟩
  | .hbm, ⟨88, _⟩ => ⟨S256, .f32⟩
  | _, _ => ⟨S256x4097x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_cst_3 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_5 : Ref sig .tc := ⟨.hbm, 77, rfl⟩
abbrev main_v60 : Ref sig .tc := ⟨.hbm, 78, rfl⟩
abbrev main_v61 : Ref sig .tc := ⟨.hbm, 79, rfl⟩
abbrev main_cst_6 : Ref sig .tc := ⟨.hbm, 80, rfl⟩
abbrev main_v62 : Ref sig .tc := ⟨.hbm, 81, rfl⟩
abbrev main_cst_7 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_8 : Ref sig .tc := ⟨.hbm, 86, rfl⟩
abbrev main_v66 : Ref sig .tc := ⟨.hbm, 87, rfl⟩
abbrev main_v67 : Ref sig .tc := ⟨.hbm, 88, rfl⟩

abbrev nD : Nat := 1
abbrev τ : Topo := Topo.v7x

variable {F : FTy → Type} [FloatOps F]

class Facts₀ : Prop where
  slices_S256x4097x32_S256x1x32_0_0_0 : S256x4097x32.Slices ![0, 0, 0] S256x1x32
  shapeCasts_S256x1x32_S256x32 : S256x1x32.ShapeCasts S256x32
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)
  reducesTo_S256x32_S256_d1 : S256x32.ReducesTo [1] S256
  h_S_ : 0 < S_.numel
  bcast_S_S256 : S_.BroadcastsInDim S256 (![] : Fin 0 → Fin S256.rank)
  slices_S256x4097x32_S256x4096x32_0_0_0 : S256x4097x32.Slices ![0, 0, 0] S256x4096x32
  slices_S256x4097x32_S256x4096x32_0_1_0 : S256x4097x32.Slices ![0, 1, 0] S256x4096x32
  transposes_S32x16_S16x32_1_0 : S32x16.Transposes [1, 0] S16x32
  bcast_S4096x32_S1x4096x32_1_2 : S4096x32.BroadcastsInDim S1x4096x32 (![1, 2] : Fin 2 → Fin S1x4096x32.rank)
  bcast_S1x4096x32_S256x4096x32_0_1_2 : S1x4096x32.BroadcastsInDim S256x4096x32 (![0, 1, 2] : Fin 3 → Fin S256x4096x32.rank)
  bcast_S32_S1x1x32_2 : S32.BroadcastsInDim S1x1x32 (![2] : Fin 1 → Fin S1x1x32.rank)
  bcast_S1x1x32_S256x4096x32_0_1_2 : S1x1x32.BroadcastsInDim S256x4096x32 (![0, 1, 2] : Fin 3 → Fin S256x4096x32.rank)
  bcast_S_S256x4096x32 : S_.BroadcastsInDim S256x4096x32 (![] : Fin 0 → Fin S256x4096x32.rank)
  reducesTo_S256x4096x32_S256x4096_d2 : S256x4096x32.ReducesTo [2] S256x4096
  bcast_S_S256x4096 : S_.BroadcastsInDim S256x4096 (![] : Fin 0 → Fin S256x4096.rank)
  reducesTo_S256x4096_S256_d1 : S256x4096.ReducesTo [1] S256
  dot_S256x4096x32_S32x32_S256x4096x32_2_1_01_0_n_n_wf : DotDims.WF S256x4096x32 S32x32 S256x4096x32 [2] [1] [0, 1] [0] [] []
  dot_S4096x16_S16x32_S4096x32_1_0_0_1_n_n_wf : DotDims.WF S4096x16 S16x32 S4096x32 [1] [0] [0] [1] [] []

variable [Facts₀]

def dot_S256x4096x32_S32x32_S256x4096x32_2_1_01_0_n_n : DotDims S256x4096x32 S32x32 S256x4096x32 where
  lhsContracting := [2]
  rhsContracting := [1]
  lhsNonContracting := [0, 1]
  rhsNonContracting := [0]
  lhsBatch := []
  rhsBatch := []
  wf := dot_S256x4096x32_S32x32_S256x4096x32_2_1_01_0_n_n_wf
def dot_S4096x16_S16x32_S4096x32_1_0_0_1_n_n : DotDims S4096x16 S16x32 S4096x32 where
  lhsContracting := [1]
  rhsContracting := [0]
  lhsNonContracting := [0]
  rhsNonContracting := [1]
  lhsBatch := []
  rhsBatch := []
  wf := dot_S4096x16_S16x32_S4096x32_1_0_0_1_n_n_wf

class Facts : Prop extends Facts₀ where

variable [Facts]
-- ==== Proof.RunFinds.lean ====
/-
  What the kernel's body leaves in its output block, read off its run.

  At one grid point the body loads its operand blocks whole (the two state-transition matrices, the two input
  matrices, the four parameter rows), loads the first state row of each of its 8 trajectories, runs 32 trips of a
  loop that carries one number per trajectory, and stores one 8 x 1 block. So the stored block is a pure function of
  the loads: the closing arithmetic applied to the first-row term and to the value the loop carries out. One trip, in
  turn, loads 128 consecutive state rows, the row after them, and the 128 matching input and observation rows, and
  returns the trip arithmetic of those loads and of the value carried in.
-/
import proofs.«140382_j88235808129391_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.RunFinds

open Cert.KernelIdeal Cert.KernelIdeal.Gen

variable {F : FTy → Type} [FloatOps F]

theorem hz2 : (![0, 0] : Fin 2 → Nat) = fun _ => 0 := funext fun a => by fin_cases a <;> rfl

/-- The first state row of each trajectory of the block. -/
def firstRow (X : Vec F S8x4097x32 .f32) : Vec F S8x1x32 .f32 :=
  View.ld X (Rect.unit (s := S8x4097x32) ![0, 0, 0] S8x1x32.size inb_S8x4097x32_S8x1x32_0_0_0)

/-- Trip `k`'s 128 state rows. -/
def rowsAt (X : Vec F S8x4097x32 .f32) (k : Fin k0_t1_loop.trips) : Vec F S8x128x32 .f32 :=
  View.ld X (Rect.unit (s := S8x4097x32) (k0_off1 k) S8x128x32.size (k0_off1_inb k))

/-- The state row after trip `k`'s 128. -/
def rowAfter (X : Vec F S8x4097x32 .f32) (k : Fin k0_t1_loop.trips) : Vec F S8x1x32 .f32 :=
  View.ld X (Rect.unit (s := S8x4097x32) (k0_off2 k) S8x1x32.size (k0_off2_inb k))

/-- Trip `k`'s 128 input rows. -/
def inputsAt (U : Vec F S4096x16 .f32) (k : Fin k0_t1_loop.trips) : Vec F S128x16 .f32 :=
  View.ld U (Rect.unit (s := S4096x16) (k0_off3 k) S128x16.size (k0_off3_inb k))

/-- Trip `k`'s 128 observation rows. -/
def obsAt (Y : Vec F S4096x32 .f32) (k : Fin k0_t1_loop.trips) : Vec F S128x32 .f32 :=
  View.ld Y (Rect.unit (s := S4096x32) (k0_off4 k) S128x32.size (k0_off4_inb k))

/-- One trip as a pure function of the carried value, of the loop-invariant operands and of the three long
    arrays it reads from. -/
def tripFn (v2 v5 : FVec F S32x32 .bf16) (v8 v11 : FVec F S16x32 .bf16) (v20 v21 : FVec F S1x1x32 .f32)
    (X : Vec F S8x4097x32 .f32) (U : Vec F S4096x16 .f32) (Y : Vec F S4096x32 .f32)
    (k : Fin k0_t1_loop.trips) (acc : FVec F S8 .f32) : FVec F S8 .f32 :=
  k0_pay2 v21 acc (obsAt Y k) (k0_pay5 v2 v8 v20 (rowsAt X k) (rowAfter X k) (inputsAt U k))
    (k0_pay6 v5 (rowsAt X k) (rowAfter X k)) (k0_pay7 v11 (inputsAt U k))

/-- What one trip of the loop returns: the run's own find, opened once here. -/
theorem trip_eq (𝒱 : Variants) (c : Dev nD) (bd : Option 𝒱.V) (i : grid0.Coords) (arg1 : Memref sig .tc .vmem S8x4097x32 .f32) (harg1 : arg1.IsWhole) (arg2 : Memref sig .tc .vmem S4096x16 .f32) (harg2 : arg2.IsWhole) (arg3 : Memref sig .tc .vmem S4096x32 .f32) (harg3 : arg3.IsWhole) (arg4 : Memref sig .tc .vmem S32x32 .f32) (harg4 : arg4.IsWhole) (arg5 : Memref sig .tc .vmem S16x32 .f32) (harg5 : arg5.IsWhole) (arg6 : Memref sig .tc .vmem S32x32 .f32) (harg6 : arg6.IsWhole) (arg7 : Memref sig .tc .vmem S16x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S8x1 .f32) (harg12 : arg12.IsWhole)
    (v2 : FVec F S32x32 .bf16) (v5 : FVec F S32x32 .bf16) (v8 : FVec F S16x32 .bf16) (v11 : FVec F S16x32 .bf16)
    (v20 : FVec F S1x1x32 .f32) (v21 : FVec F S1x1x32 .f32)
    (X_arg1 : BufTy.Contents (Elt F) arg1.view.ty) (X_arg2 : BufTy.Contents (Elt F) arg2.view.ty)
    (X_arg3 : BufTy.Contents (Elt F) arg3.view.ty) (k : Fin k0_t1_loop.trips) (acc : FVec F S8 .f32) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 v2 v5 v8 v11 v20 v21 X_arg1 X_arg2 X_arg3 k acc
      = tripFn v2 v5 v8 v11 v20 v21 (arg1.view.read (Elt F) X_arg1) (arg2.view.read (Elt F) X_arg2)
          (arg3.view.read (Elt F) X_arg3) k acc := by
  unfold tripR_k0_t1
  unfold trip_k0_t1
  dsimp only
  sl_unfold_words
  unfold tripFn rowsAt rowAfter inputsAt obsAt
  simp only [View.readAt_eq_ld]
  rfl

/-- The value carried into trip `n`, as the iteration of `tripFn` from `init`. -/
def carried (v2 v5 : FVec F S32x32 .bf16) (v8 v11 : FVec F S16x32 .bf16) (v20 v21 : FVec F S1x1x32 .f32)
    (X : Vec F S8x4097x32 .f32) (U : Vec F S4096x16 .f32) (Y : Vec F S4096x32 .f32) (init : FVec F S8 .f32) :
    ℕ → FVec F S8 .f32
  | 0 => init
  | n + 1 => if h : n < k0_t1_loop.trips then
      tripFn v2 v5 v8 v11 v20 v21 X U Y ⟨n, h⟩ (carried v2 v5 v8 v11 v20 v21 X U Y init n)
    else carried v2 v5 v8 v11 v20 v21 X U Y init n

/-- The loop's recursion over its trips is that iteration. -/
theorem st_eq (𝒱 : Variants) (c : Dev nD) (bd : Option 𝒱.V) (i : grid0.Coords) (arg1 : Memref sig .tc .vmem S8x4097x32 .f32) (harg1 : arg1.IsWhole) (arg2 : Memref sig .tc .vmem S4096x16 .f32) (harg2 : arg2.IsWhole) (arg3 : Memref sig .tc .vmem S4096x32 .f32) (harg3 : arg3.IsWhole) (arg4 : Memref sig .tc .vmem S32x32 .f32) (harg4 : arg4.IsWhole) (arg5 : Memref sig .tc .vmem S16x32 .f32) (harg5 : arg5.IsWhole) (arg6 : Memref sig .tc .vmem S32x32 .f32) (harg6 : arg6.IsWhole) (arg7 : Memref sig .tc .vmem S16x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S8x1 .f32) (harg12 : arg12.IsWhole)
    (v2 : FVec F S32x32 .bf16) (v5 : FVec F S32x32 .bf16) (v8 : FVec F S16x32 .bf16) (v11 : FVec F S16x32 .bf16)
    (v20 : FVec F S1x1x32 .f32) (v21 : FVec F S1x1x32 .f32)
    (X_arg1 : BufTy.Contents (Elt F) arg1.view.ty) (X_arg2 : BufTy.Contents (Elt F) arg2.view.ty)
    (X_arg3 : BufTy.Contents (Elt F) arg3.view.ty) (init : FVec F S8 .f32) (n : ℕ) :
    st_k0_t1 (F := F) 𝒱 c bd i arg1 harg1 arg2 harg2 arg3 harg3 arg4 harg4 arg5 harg5 arg6 harg6 arg7 harg7 arg8 harg8 arg9 harg9 arg10 harg10 arg11 harg11 arg12 harg12 v2 v5 v8 v11 v20 v21 X_arg1 X_arg2 X_arg3 init n
      = carried v2 v5 v8 v11 v20 v21 (arg1.view.read (Elt F) X_arg1) (arg2.view.read (Elt F) X_arg2)
          (arg3.view.read (Elt F) X_arg3) init n := by
  induction n with
  | zero => rfl
  | succ n ih =>
    rw [st_k0_t1.eq_2, carried]
    unfold st_k0_t1Step
    by_cases h : n < k0_t1_loop.trips
    · rw [dif_pos h, dif_pos h, ih, trip_eq]
    · rw [dif_neg h, dif_neg h, ih]

/-- The block the body stores, as the closing arithmetic of the first-row term and of the value the loop carries out
    after all its trips. -/
theorem out_eq (c : Dev nD) (i : grid0.Coords) (arg1 : Memref sig .tc .vmem S8x4097x32 .f32) (harg1 : arg1.IsWhole) (arg2 : Memref sig .tc .vmem S4096x16 .f32) (harg2 : arg2.IsWhole) (arg3 : Memref sig .tc .vmem S4096x32 .f32) (harg3 : arg3.IsWhole) (arg4 : Memref sig .tc .vmem S32x32 .f32) (harg4 : arg4.IsWhole) (arg5 : Memref sig .tc .vmem S16x32 .f32) (harg5 : arg5.IsWhole) (arg6 : Memref sig .tc .vmem S32x32 .f32) (harg6 : arg6.IsWhole) (arg7 : Memref sig .tc .vmem S16x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S8x1 .f32) (harg12 : arg12.IsWhole) (x0 : Vec F S8x4097x32 .f32) (x1 : Vec F S4096x16 .f32) (x2 : Vec F S4096x32 .f32) (x3 : Vec F S32x32 .f32) (x4 : Vec F S16x32 .f32) (x5 : Vec F S32x32 .f32) (x6 : Vec F S16x32 .f32) (x7 : Vec F S1x32 .f32) (x8 : Vec F S1x32 .f32) (x9 : Vec F S1x32 .f32) (x10 : Vec F S1x32 .f32) :
    out0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10
      = k0_pay3 (k0_pay14 x9 x10 (firstRow x0))
          (carried (k0_pay8 x3) (k0_pay9 x5) (k0_pay10 x4) (k0_pay11 x6) (k0_pay12 x7) (k0_pay13 x8) x0 x1 x2
            k0_pay1 k0_t1_loop.trips) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10)]
  unfold kernelRun0_A
  dsimp only
  sl_unfold_words
  rw [View.canon_unit_zero hz2, st_eq]
  simp only [View.readAt_eq_ld, harg1.read_unread, harg2.read_unread, harg3.read_unread, harg4.read_unread,
    harg5.read_unread, harg6.read_unread, harg7.read_unread, harg8.read_unread, harg9.read_unread,
    harg10.read_unread, harg11.read_unread, View.ld_unit_zero (S := S32x32) hz2, View.ld_unit_zero (S := S16x32) hz2,
    View.ld_unit_zero (S := S1x32) hz2]
  unfold firstRow
  rfl

end Cert.KernelIdeal.RunFinds

end
-- ==== Proof.BlockReads.lean ====
/-
  Where the body's loads sit in its operand blocks.

  Trip `k` of the loop reads state rows `128 k … 128 k + 127` and then row `128 k + 128` of each trajectory of the
  block, and input and observation rows `128 k … 128 k + 127`; before the loop the body reads state row 0.
-/
import proofs.«140382_j88235808129391_1_alg».proof.Proof.RunFinds
import Idealize.ShloMosaic.Lib.ValueIdx

noncomputable section

open Idealize.ShloMosaic Idealize.ShloMosaic.TcCoe Idealize.SL.Sem Idealize.ShloMosaic.ValueIdx

namespace Cert.KernelIdeal.RunFinds

open Cert.KernelIdeal Cert.KernelIdeal.Gen

variable {F : FTy → Type} [FloatOps F]

/-- The loop makes 32 trips. -/
theorem trips_eq : k0_t1_loop.trips = 32 := by decide +kernel

theorem trip_lt (k : Fin k0_t1_loop.trips) : k.val < 32 := Nat.lt_of_lt_of_le k.isLt k0_t1_abs.2.1

theorem firstRow_apply (X : Vec F S8x4097x32 .f32) (b : Fin 8) (d : Fin 32) :
    firstRow X (ix3 b (0 : Fin 1) d) = X (ix3 b (0 : Fin 4097) d) := by
  show X _ = X _
  refine congrArg X (funext fun a => Fin.ext ?_)
  rw [LoadRect.idx_apply]
  match a with
  | ⟨0, _⟩ => simp [Rect.unit]
  | ⟨1, _⟩ => simp [Rect.unit]
  | ⟨2, _⟩ => simp [Rect.unit]

theorem rowsAt_apply (X : Vec F S8x4097x32 .f32) (k : Fin k0_t1_loop.trips) (b : Fin 8) (s : Fin 128) (e : Fin 32) :
    rowsAt X k (ix3 b s e)
      = X (ix3 b (⟨128 * k.val + s.val, by have := trip_lt k; have := s.isLt; omega⟩ : Fin 4097) e) := by
  show X _ = X _
  refine congrArg X (funext fun a => Fin.ext ?_)
  rw [LoadRect.idx_apply]
  match a with
  | ⟨0, _⟩ => simp [Rect.unit, k0_off1_eq k]
  | ⟨1, _⟩ => simp [Rect.unit, k0_off1_eq k]
  | ⟨2, _⟩ => simp [Rect.unit, k0_off1_eq k]

theorem rowAfter_apply (X : Vec F S8x4097x32 .f32) (k : Fin k0_t1_loop.trips) (b : Fin 8) (e : Fin 32) :
    rowAfter X k (ix3 b (0 : Fin 1) e)
      = X (ix3 b (⟨128 * k.val + 128, by have := trip_lt k; omega⟩ : Fin 4097) e) := by
  show X _ = X _
  refine congrArg X (funext fun a => Fin.ext ?_)
  rw [LoadRect.idx_apply]
  match a with
  | ⟨0, _⟩ => simp [Rect.unit, k0_off2_eq k]
  | ⟨1, _⟩ => simp [Rect.unit, k0_off2_eq k]
  | ⟨2, _⟩ => simp [Rect.unit, k0_off2_eq k]

theorem inputsAt_apply (U : Vec F S4096x16 .f32) (k : Fin k0_t1_loop.trips) (t : Fin 128) (q : Fin 16) :
    inputsAt U k (ix2 t q)
      = U (ix2 (⟨128 * k.val + t.val, by have := trip_lt k; have := t.isLt; omega⟩ : Fin 4096) q) := by
  show U _ = U _
  refine congrArg U (funext fun a => Fin.ext ?_)
  rw [LoadRect.idx_apply]
  match a with
  | ⟨0, _⟩ => simp [Rect.unit, k0_off3_eq k]
  | ⟨1, _⟩ => simp [Rect.unit, k0_off3_eq k]

theorem obsAt_apply (Y : Vec F S4096x32 .f32) (k : Fin k0_t1_loop.trips) (t : Fin 128) (d : Fin 32) :
    obsAt Y k (ix2 t d)
      = Y (ix2 (⟨128 * k.val + t.val, by have := trip_lt k; have := t.isLt; omega⟩ : Fin 4096) d) := by
  show Y _ = Y _
  refine congrArg Y (funext fun a => Fin.ext ?_)
  rw [LoadRect.idx_apply]
  match a with
  | ⟨0, _⟩ => simp [Rect.unit, k0_off4_eq k]
  | ⟨1, _⟩ => simp [Rect.unit, k0_off4_eq k]

end Cert.KernelIdeal.RunFinds

end
-- ==== Proof.Spec.lean ====
/-
  The quantity both programs compute, as one function of the argument arrays.

  A linear-Gaussian state-space model: for each of 256 trajectories `x` (4097 states of 32 coordinates), driven by
  4096 shared inputs `u` (16 coordinates) and observed through 4096 shared observations `y` (32 coordinates), the
  joint log-density is

      log N(x_0; mu0, diag exp ls0)
        + sum over t of [ log N(x_{t+1}; A x_t + Bu u_t, diag exp lq) + log N(y_t; C x_{t+1} + Du u_t, diag exp lr) ].

  A diagonal Gaussian log-density with mean `mn` and log-variance `lv` is
  `-1/2 * sum_d ((x_d - mn_d)^2 * exp (-lv_d) + lv_d + log 2pi)`.
  Everything is stated on the extended reals with the float literals left as the bit patterns both programs carry
  (`log 2pi` rounded to single precision, and `-1/2`); neither is ever evaluated.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- `log 2pi` as the single-precision literal. -/
def L : EReal := Ideal.ofBits .f32 0x3FEB3F8E#32

/-- `-1/2` as the single-precision literal. -/
def negHalf : EReal := Ideal.ofBits .f32 0xBF000000#32

/-- One coordinate's summand of a diagonal Gaussian log-density (before the factor `-1/2`). -/
def gterm (x mn lv : EReal) : EReal := (x - mn) * (x - mn) * Ideal.exp (-lv) + lv + L

/-- The diagonal Gaussian log-density of `x` with mean `mn` and log-variance `lv`. -/
def glp {n : ℕ} (x mn lv : Fin n → EReal) : EReal := negHalf * ∑ d, gterm (x d) (mn d) (lv d)

/-- One coordinate of an affine mean: the row `W` against the state `x` plus the row `Wu` against the input `u`. -/
def affine {n k : ℕ} (W : Fin n → EReal) (x : Fin n → EReal) (Wu : Fin k → EReal) (u : Fin k → EReal) : EReal :=
  (∑ j, x j * W j) + ∑ q, u q * Wu q

/-- Step `t` of one trajectory: the transition term of `x_{t+1}` given `x_t`, plus the observation term of `y_t`
    given `x_{t+1}`. -/
def stepLp (xrow : Fin 4097 → Fin 32 → EReal) (us : Fin 4096 → Fin 16 → EReal) (ys : Fin 4096 → Fin 32 → EReal)
    (A : Fin 32 → Fin 32 → EReal) (Bu : Fin 32 → Fin 16 → EReal) (lq : Fin 32 → EReal)
    (C : Fin 32 → Fin 32 → EReal) (Du : Fin 32 → Fin 16 → EReal) (lr : Fin 32 → EReal) (t : Fin 4096) : EReal :=
  glp (xrow t.succ) (fun i => affine (A i) (xrow t.castSucc) (Bu i) (us t)) lq
    + glp (ys t) (fun i => affine (C i) (xrow t.succ) (Du i) (us t)) lr

/-- The joint log-density of one trajectory. -/
def total (xrow : Fin 4097 → Fin 32 → EReal) (us : Fin 4096 → Fin 16 → EReal) (ys : Fin 4096 → Fin 32 → EReal)
    (A : Fin 32 → Fin 32 → EReal) (Bu : Fin 32 → Fin 16 → EReal) (lq : Fin 32 → EReal)
    (C : Fin 32 → Fin 32 → EReal) (Du : Fin 32 → Fin 16 → EReal) (lr : Fin 32 → EReal)
    (mu0 ls0 : Fin 32 → EReal) : EReal :=
  glp (xrow 0) mu0 ls0 + ∑ t : Fin 4096, stepLp xrow us ys A Bu lq C Du lr t

/-- The result array: entry `b` is the joint log-density of trajectory `b`, the arrays read at their indices. -/
def G (x0 : (⟨3, ![256, 4097, 32]⟩ : Shape).Idx → EReal) (x1 : (⟨2, ![4096, 16]⟩ : Shape).Idx → EReal)
    (x2 : (⟨2, ![4096, 32]⟩ : Shape).Idx → EReal) (x3 : (⟨2, ![32, 32]⟩ : Shape).Idx → EReal)
    (x4 : (⟨2, ![32, 16]⟩ : Shape).Idx → EReal) (x5 : (⟨1, ![32]⟩ : Shape).Idx → EReal)
    (x6 : (⟨2, ![32, 32]⟩ : Shape).Idx → EReal) (x7 : (⟨2, ![32, 16]⟩ : Shape).Idx → EReal)
    (x8 x9 x10 : (⟨1, ![32]⟩ : Shape).Idx → EReal) : (⟨1, ![256]⟩ : Shape).Idx → EReal := fun i =>
  total (fun t d => x0 (ix3 (i 0) t d)) (fun t q => x1 (ix2 t q)) (fun t d => x2 (ix2 t d))
    (fun a j => x3 (ix2 a j)) (fun a q => x4 (ix2 a q)) (fun d => x5 (ix1 d))
    (fun a j => x6 (ix2 a j)) (fun a q => x7 (ix2 a q)) (fun d => x8 (ix1 d))
    (fun d => x9 (ix1 d)) (fun d => x10 (ix1 d))

/-- Rows `1 … 128` of a window of 129 consecutive rows given as its first 128 rows `v` and its last row `w`:
    row `t` of the result is row `t + 1` of the window. -/
def shiftRows {n : ℕ} (v : Fin 128 → Fin n → EReal) (w : Fin n → EReal) (t : Fin 128) : Fin n → EReal :=
  if h : t.val + 1 < 128 then v ⟨t.val + 1, h⟩ else w

end Cert.Spec

end
-- ==== Proof.LibVectorReads.lean ====
/-
  A few vector layout operations and sums read at an entry, in exact arithmetic, for any extents.

  * A bias vector of length `N` cast to one row `[1, N]` and repeated over `R` rows reads, at `(r, n)`, the vector at `n`.
  * A sum over the last axis of a rank-3 array reads, at `(r, m)`, the sum over the last coordinate; the same for a
    rank-2 array at `r`.
  * An `[A, B]` array cast to `[A, 1, B]` reads, at `(r, u, k)`, the operand at `(r, k)`.
  * A `[K, 1]` column cast to a vector of length `K` reads, at `k`, the column at `(k, 0)`.
  * An `[R, 1, C]` array repeated along the middle axis to `[R, n, C]` reads, at `(r, m, k)`, the operand at `(r, 0, k)`.
-/
import Idealize.ShloMosaic.Lib.ValueLayout
import Idealize.ShloMosaic.Lib.Pipeline.Value
import Idealize.ShloMosaic.PureOps.Ideal.Laws

noncomputable section

open scoped BigOperators

namespace Cert.LibVectorReads

open Idealize.ShloMosaic Idealize.ShloMosaic.ValueIdx

/-- A bias vector cast to one row and repeated over `R` rows reads, at `(r, n)`, the vector at `n`. -/
theorem bias_rows_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- The sum over the last axis of an `[A, B, C]` array, at `(r, m)`. -/
theorem sum_last3_apply {A B C : ℕ} (src : FVec Ideal ⟨3, ![A, B, C]⟩ .f32)
    (h : (⟨3, ![A, B, C]⟩ : Shape).Reduces [(2 : Fin 3)] ⟨2, ![A, B]⟩) (hφ : FKind.Formats .f32)
    (hacc : (0x00000000#32 : BitVec 32) = FKind.add.neutral .f32 hφ) (r : Fin A) (m : Fin B) :
    multiReduction .add [(2 : Fin 3)] ⟨2, ![A, B]⟩ src 0x00000000#32 h hφ hacc (ix2 r m)
      = ∑ k : Fin C, src (ix3 r m k) := by
  refine (Ideal.multiReduction_add_single src _ h hφ hacc (ix2 r m)).trans ?_
  refine Finset.sum_congr rfl fun k _ => congrArg src ?_
  funext c
  apply Fin.ext
  match c with
  | ⟨0, _⟩ => rfl
  | ⟨1, _⟩ => rfl
  | ⟨2, _⟩ => rfl

/-- The sum over the last axis of an `[A, B]` array, at `r`. -/
theorem sum_last2_apply {A B : ℕ} (src : FVec Ideal ⟨2, ![A, B]⟩ .f32)
    (h : (⟨2, ![A, B]⟩ : Shape).Reduces [(1 : Fin 2)] ⟨1, ![A]⟩) (hφ : FKind.Formats .f32)
    (hacc : (0x00000000#32 : BitVec 32) = FKind.add.neutral .f32 hφ) (r : Fin A) :
    multiReduction .add [(1 : Fin 2)] ⟨1, ![A]⟩ src 0x00000000#32 h hφ hacc (ix1 r)
      = ∑ k : Fin B, src (ix2 r k) := by
  refine (Ideal.multiReduction_add_single src _ h hφ hacc (ix1 r)).trans ?_
  refine Finset.sum_congr rfl fun k _ => congrArg src ?_
  funext c
  apply Fin.ext
  match c with
  | ⟨0, _⟩ => rfl
  | ⟨1, _⟩ => rfl

/-- An `[A, B]` array cast to `[A, 1, B]` reads, at `(r, u, k)`, the operand at `(r, k)`. -/
theorem shapeCast_ab_a1b_apply {α : Type} {A B : ℕ} (x : (⟨2, ![A, B]⟩ : Shape).Idx → α)
    (h : (⟨2, ![A, B]⟩ : Shape).ShapeCasts ⟨3, ![A, 1, B]⟩) (r : Fin A) (u : Fin 1) (k : Fin B) :
    shapeCast ⟨3, ![A, 1, B]⟩ x h (ix3 r u k) = x (ix2 r k) :=
  shapeCast_apply x h _ _ (by
    have hu : u.val = 0 := by omega
    rw [Shape.rowMajor_val_two, Shape.rowMajor_val_three]
    show r.val * B + k.val = (r.val * 1 + u.val) * B + k.val
    rw [hu, Nat.mul_one, Nat.add_zero])

/-- A `[K, 1]` column cast to a vector reads, at `k`, the column at `(k, 0)`. -/
theorem shapeCast_a1_a_apply {α : Type} {K : ℕ} (x : (⟨2, ![K, 1]⟩ : Shape).Idx → α)
    (h : (⟨2, ![K, 1]⟩ : Shape).ShapeCasts ⟨1, ![K]⟩) (k : Fin K) :
    shapeCast ⟨1, ![K]⟩ x h (ix1 k) = x (ix2 k (0 : Fin 1)) :=
  shapeCast_apply x h _ _ (by
    rw [Shape.rowMajor_val_two, Shape.rowMajor_val_one]
    show k.val * 1 + 0 = k.val
    omega)

/-- An `[R, 1, C]` array repeated along the middle axis reads, at `(r, m, k)`, the operand at `(r, 0, k)`. -/
theorem repeat_mid_apply {α : Type} {R n C : ℕ} (v : (⟨3, ![R, 1, C]⟩ : Shape).Idx → α)
    (h : (⟨3, ![R, 1, C]⟩ : Shape).Broadcasts ⟨3, ![R, n, C]⟩) (r : Fin R) (m : Fin n) (k : Fin C) :
    broadcastTo ⟨3, ![R, n, C]⟩ v h (ix3 r m k) = v (ix3 r (0 : Fin 1) k) := by
  refine broadcastTo_apply v h (ix3 r m k) (ix3 r (0 : Fin 1) k) fun ax => ?_
  match ax with
  | ⟨0, _⟩ =>
    show r.val = if R = 1 then 0 else r.val
    split
    · have := r.isLt; omega
    · rfl
  | ⟨1, _⟩ => rfl
  | ⟨2, _⟩ =>
    show k.val = if C = 1 then 0 else k.val
    split
    · have := k.isLt; omega
    · rfl

end Cert.LibVectorReads

end
-- ==== Proof.PayInit.lean ====
/-
  The kernel's arithmetic outside its loop, in exact arithmetic, read at an entry.

  Before the loop the kernel rounds the four weight matrices (the identity in exact arithmetic), views the two
  log-variance rows `[1, 32]` as `[1, 1, 32]`, and computes, for each of its eight trajectories, the sum over the 32
  coordinates of the initial state's Gaussian summand `(x - mu0)^2 * exp (0 - ls0) + ls0 + log 2pi`. The loop's running
  total starts at zero. After the loop the result column is `-1/2` times the initial sum plus the loop's total.
-/
import proofs.«140382_j88235808129391_1_alg».proof.Proof.Gen.KernelIdeal.Skeleton
import proofs.«140382_j88235808129391_1_alg».proof.Proof.Spec
import proofs.«140382_j88235808129391_1_alg».proof.Proof.LibVectorReads

noncomputable section

open scoped BigOperators

namespace Cert.KernelIdeal.Pay

open Idealize.ShloMosaic Idealize.ShloMosaic.ValueIdx Cert.KernelIdeal Cert.KernelIdeal.Gen Cert.Spec

/-- An `[8, 1, 32]` array viewed as `[8, 32]` reads, at `(b, d)`, the operand at `(b, 0, d)`. -/
theorem shapeCast_a1b_ab_apply {α : Type} {A B : ℕ} (x : (⟨3, ![A, 1, B]⟩ : Shape).Idx → α)
    (h : (⟨3, ![A, 1, B]⟩ : Shape).ShapeCasts ⟨2, ![A, B]⟩) (r : Fin A) (k : Fin B) :
    shapeCast ⟨2, ![A, B]⟩ x h (ix2 r k) = x (ix3 r (0 : Fin 1) k) :=
  shapeCast_apply x h _ _ (by
    rw [Shape.rowMajor_val_two, Shape.rowMajor_val_three]
    show (r.val * 1 + 0) * B + k.val = r.val * B + k.val
    rw [Nat.mul_one, Nat.add_zero])

/-- A vector of length `K` viewed as a `[K, 1]` column reads, at `(k, 0)`, the vector at `k`. -/
theorem shapeCast_a_a1_apply {α : Type} {K : ℕ} (x : (⟨1, ![K]⟩ : Shape).Idx → α)
    (h : (⟨1, ![K]⟩ : Shape).ShapeCasts ⟨2, ![K, 1]⟩) (k : Fin K) (u : Fin 1) :
    shapeCast ⟨2, ![K, 1]⟩ x h (ix2 k u) = x (ix1 k) :=
  shapeCast_apply x h _ _ (by
    have hu : u.val = 0 := by omega
    rw [Shape.rowMajor_val_two, Shape.rowMajor_val_one]
    show k.val = k.val * 1 + u.val
    rw [hu, Nat.mul_one, Nat.add_zero])

/-- The loop's running total starts at zero. -/
theorem pay1_apply (b : Fin 8) : k0_pay1 (F := Ideal) (ix1 b) = 0 := by
  unfold k0_pay1
  exact Ideal.ofBits_zero_f32

/-- The result column: `-1/2` times the initial state's sum, plus the loop's total. -/
theorem pay3_apply (v36 v41 : FVec Ideal S8 .f32) (b : Fin 8) :
    k0_pay3 (F := Ideal) v36 v41 (ix2 b (0 : Fin 1)) = negHalf * v36 (ix1 b) + v41 (ix1 b) := by
  unfold k0_pay3
  refine (shapeCast_a_a1_apply _ _ b (0 : Fin 1)).trans ?_
  rfl

/-- Rounding a weight matrix to half precision is the identity in exact arithmetic. -/
theorem pay8_apply (v0 : Vec Ideal S32x32 .f32) (j i : Fin 32) : k0_pay8 (F := Ideal) v0 (ix2 j i) = v0 (ix2 j i) := by
  unfold k0_pay8
  exact congrFun (shapeCast_self v0 _) (ix2 j i)

theorem pay9_apply (v3 : Vec Ideal S32x32 .f32) (j i : Fin 32) : k0_pay9 (F := Ideal) v3 (ix2 j i) = v3 (ix2 j i) := by
  unfold k0_pay9
  exact congrFun (shapeCast_self v3 _) (ix2 j i)

theorem pay10_apply (v6 : Vec Ideal S16x32 .f32) (q : Fin 16) (i : Fin 32) :
    k0_pay10 (F := Ideal) v6 (ix2 q i) = v6 (ix2 q i) := by
  unfold k0_pay10
  exact congrFun (shapeCast_self v6 _) (ix2 q i)

theorem pay11_apply (v9 : Vec Ideal S16x32 .f32) (q : Fin 16) (i : Fin 32) :
    k0_pay11 (F := Ideal) v9 (ix2 q i) = v9 (ix2 q i) := by
  unfold k0_pay11
  exact congrFun (shapeCast_self v9 _) (ix2 q i)

/-- A log-variance row `[1, 32]` viewed as `[1, 1, 32]` reads, at `(0, 0, d)`, the row at `(0, d)`. -/
theorem pay12_apply (v12 : Vec Ideal S1x32 .f32) (d : Fin 32) :
    k0_pay12 (F := Ideal) v12 (ix3 (0 : Fin 1) (0 : Fin 1) d) = v12 (ix2 (0 : Fin 1) d) := by
  unfold k0_pay12
  refine (shapeCast_ab_1ab_apply _ _ (0 : Fin 1) (0 : Fin 1) d).trans ?_
  exact congrFun (shapeCast_self v12 _) (ix2 (0 : Fin 1) d)

theorem pay13_apply (v14 : Vec Ideal S1x32 .f32) (d : Fin 32) :
    k0_pay13 (F := Ideal) v14 (ix3 (0 : Fin 1) (0 : Fin 1) d) = v14 (ix2 (0 : Fin 1) d) := by
  unfold k0_pay13
  refine (shapeCast_ab_1ab_apply _ _ (0 : Fin 1) (0 : Fin 1) d).trans ?_
  exact congrFun (shapeCast_self v14 _) (ix2 (0 : Fin 1) d)

/-- The initial state's sum: for trajectory `b`, the sum over the coordinates of the Gaussian summand of the state
    `v22` with mean `v16` and log-variance `v18`. -/
theorem pay14_apply (v16 v18 : Vec Ideal S1x32 .f32) (v22 : Vec Ideal S8x1x32 .f32) (b : Fin 8) :
    k0_pay14 (F := Ideal) v16 v18 v22 (ix1 b)
      = ∑ d : Fin 32, gterm (v22 (ix3 b (0 : Fin 1) d)) (v16 (ix2 (0 : Fin 1) d)) (v18 (ix2 (0 : Fin 1) d)) := by
  unfold k0_pay14
  refine (Cert.LibVectorReads.sum_last2_apply _ _ _ _ b).trans ?_
  refine Finset.sum_congr rfl fun d _ => ?_
  have hx : shapeCast S8x32 v22 shapeCasts_S8x1x32_S8x32 (ix2 b d) = v22 (ix3 b (0 : Fin 1) d) :=
    shapeCast_a1b_ab_apply v22 _ b d
  have hrow : ∀ w : FVec Ideal S1x32 .f32,
      broadcastTo S8x32 w broadcasts_S1x32_S8x32 (ix2 b d) = w (ix2 (0 : Fin 1) d) :=
    fun w => broadcastTo_1b_ab_apply w _ b d
  have hself : ∀ w : FVec Ideal S1x32 .f32, shapeCast S1x32 w shapeCasts_S1x32_S1x32 = w :=
    fun w => shapeCast_self w _
  show (shapeCast S8x32 v22 shapeCasts_S8x1x32_S8x32 (ix2 b d)
          - broadcastTo S8x32 (shapeCast S1x32 v16 shapeCasts_S1x32_S1x32) broadcasts_S1x32_S8x32 (ix2 b d))
        * (shapeCast S8x32 v22 shapeCasts_S8x1x32_S8x32 (ix2 b d)
          - broadcastTo S8x32 (shapeCast S1x32 v16 shapeCasts_S1x32_S1x32) broadcasts_S1x32_S8x32 (ix2 b d))
        * broadcastTo S8x32 (exp (subf (broadcast S1x32 (Scalar.ofBits (F := Ideal) .f32 0x00000000#32))
            (shapeCast S1x32 v18 shapeCasts_S1x32_S1x32))) broadcasts_S1x32_S8x32 (ix2 b d)
        + broadcastTo S8x32 (shapeCast S1x32 v18 shapeCasts_S1x32_S1x32) broadcasts_S1x32_S8x32 (ix2 b d)
        + Ideal.ofBits .f32 0x3FEB3F8E#32 = _
  rw [hx, hrow, hrow, hrow, hself, hself]
  show (v22 (ix3 b (0 : Fin 1) d) - v16 (ix2 (0 : Fin 1) d)) * (v22 (ix3 b (0 : Fin 1) d) - v16 (ix2 (0 : Fin 1) d))
        * Ideal.exp (Ideal.ofBits .f32 0x00000000#32 - v18 (ix2 (0 : Fin 1) d)) + v18 (ix2 (0 : Fin 1) d) + L = _
  rw [Ideal.ofBits_zero_f32, zero_sub]
  rfl

end Cert.KernelIdeal.Pay

end
-- ==== Proof.PayNext.lean ====
/-
  The window of next states of one loop trip, read at an entry.

  A trip works on 128 consecutive states of each trajectory, held as an `[8, 128, 32]` block, together with the one
  state that follows them, held as an `[8, 1, 32]` block. The states the trip's steps arrive at are rows `1 … 128` of
  that window of 129 rows: the kernel forms them by dropping row `0` of the block and appending the extra row. At
  `(b, t, d)` the result is therefore row `t + 1` of the block when `t + 1 < 128`, and the extra row otherwise.
-/
import proofs.«140382_j88235808129391_1_alg».proof.Proof.Gen.KernelIdeal.Skeleton
import proofs.«140382_j88235808129391_1_alg».proof.Proof.Spec
import Idealize.ShloMosaic.Lib.Pipeline.Value

noncomputable section

open scoped BigOperators

namespace Cert.KernelIdeal.Pay

open Idealize.ShloMosaic Idealize.ShloMosaic.ValueIdx Cert.KernelIdeal Cert.KernelIdeal.Gen Cert.Spec

/-- The block with its first row dropped and the following row appended, at `(b, t, d)`: row `t + 1` of the window. -/
theorem pay4_apply (v50 : Vec Ideal S8x128x32 .f32) (v52 : Vec Ideal S8x1x32 .f32) (b : Fin 8) (t : Fin 128) (d : Fin 32) :
    k0_pay4 (F := Ideal) v50 v52 (ix3 b t d)
      = shiftRows (fun s e => v50 (ix3 b s e)) (fun e => v52 (ix3 b (0 : Fin 1) e)) t d := by
  unfold k0_pay4 shiftRows
  by_cases h : t.val + 1 < 128
  · -- the entry falls in the first piece, rows 1 … 127 of the block
    rw [dif_pos h]
    refine (concatenate_pair_apply_left (t := S8x128x32) (s₁ := S8x127x32) (s₂ := S8x1x32) (1 : Fin 3) _ v52 _ (ix3 b t d) rfl
      (ix3 b (⟨t.val, by omega⟩ : Fin 127) d) ?_).trans ?_
    · intro a
      match a with
      | ⟨0, _⟩ => rfl
      | ⟨1, _⟩ => rfl
      | ⟨2, _⟩ => rfl
    · refine extractStridedSlice_apply _ v50 _ _ (ix3 b (⟨t.val + 1, h⟩ : Fin 128) d) ?_
      intro a
      match a with
      | ⟨0, _⟩ => show b.val = 0 + b.val; omega
      | ⟨1, _⟩ => show t.val + 1 = 1 + t.val; omega
      | ⟨2, _⟩ => show d.val = 0 + d.val; omega
  · -- the entry is the last row: the appended one
    rw [dif_neg h]
    refine concatenate_pair_apply_right (t := S8x128x32) (s₁ := S8x127x32) (s₂ := S8x1x32) (1 : Fin 3) _ v52 _ (ix3 b t d) rfl rfl (ix3 b (0 : Fin 1) d) ?_ ?_
    · intro a ha
      match a with
      | ⟨0, _⟩ => rfl
      | ⟨1, _⟩ => exact absurd rfl ha
      | ⟨2, _⟩ => rfl
    · show 0 + 127 = t.val
      have := t.isLt
      omega

end Cert.KernelIdeal.Pay

end
-- ==== Proof.LibPlainDot.lean ====
/-
  Two general facts about finite sums, used where one program contracts a long axis in one product and another
  contracts the same axis block by block.

  * A sum over `Fin (n + n + n)` (or `Fin (n + n)`) is the sum of the sums over its consecutive blocks of
    length `n`. This holds in every commutative additive monoid, so in particular on the extended reals, where
    no cancellation or distributivity is available at the infinities and none is needed here.
  * A matrix product with plain dimension numbers (rows by `K` times `K` by columns, nothing batched), accumulated
    into the zero matrix and read at exact arithmetic, is at the entry `(p, c)` the sum over the contracted
    coordinate `a` of the left factor at `(p, a)` times the right factor at `(a, c)`.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- A sum over three consecutive blocks of `n` indices is the sum of the three block sums. -/
theorem sum_three_blocks {M : Type*} [AddCommMonoid M] (n : Nat) (f : Fin (n + n + n) → M) :
    ∑ a, f a = (∑ a : Fin n, f ⟨a.val, by omega⟩ + ∑ a : Fin n, f ⟨n + a.val, by omega⟩)
      + ∑ a : Fin n, f ⟨n + n + a.val, by omega⟩ := by
  rw [Fin.sum_univ_add, Fin.sum_univ_add]
  rfl

/-- A sum over two consecutive blocks of `n` indices is the sum of the two block sums. -/
theorem sum_two_blocks {M : Type*} [AddCommMonoid M] (n : Nat) (f : Fin (n + n) → M) :
    ∑ a, f a = ∑ a : Fin n, f ⟨a.val, by omega⟩ + ∑ a : Fin n, f ⟨n + a.val, by omega⟩ := by
  rw [Fin.sum_univ_add]
  rfl

/-- The blocks of 64 inside 192 indices. -/
theorem sum_fin192 {M : Type*} [AddCommMonoid M] (f : Fin 192 → M) :
    ∑ a, f a = (∑ a : Fin 64, f ⟨a.val, by omega⟩ + ∑ a : Fin 64, f ⟨64 + a.val, by omega⟩)
      + ∑ a : Fin 64, f ⟨128 + a.val, by omega⟩ :=
  sum_three_blocks 64 f

/-- The blocks of 64 inside 128 indices. -/
theorem sum_fin128 {M : Type*} [AddCommMonoid M] (f : Fin 128 → M) :
    ∑ a, f a = ∑ a : Fin 64, f ⟨a.val, by omega⟩ + ∑ a : Fin 64, f ⟨64 + a.val, by omega⟩ :=
  sum_two_blocks 64 f

/-- A plain `R × K` by `K × C` product accumulated into the zero matrix, read at `(p, c)` in exact arithmetic:
    `∑ a, l (p, a) * r (a, c)`. The hypotheses `hl0 … hr1` say the dimension numbers are the plain ones: the left
    factor's index takes its row from the output index and its column from the contraction index, the right factor's
    its row from the contraction index and its column from the output index. -/
theorem matmul_zero_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    FloatOps.matmul D prec l r (constant ⟨2, ![R, C]⟩ .f32 0x00000000#32) (ix2 p c)
      = ∑ a : Fin K, l (ix2 p a) * r (ix2 a c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.PayTrans.lean ====
/-
  One loop trip's transition log-densities, read at an entry.

  A trip holds 128 consecutive states of each of 8 trajectories as an `[8, 128, 32]` block, the state after them as an
  `[8, 1, 32]` block, and the 128 inputs that drive them as a `[128, 16]` block. For trajectory `b` and step `t` the
  mean of the next state is the affine map of the current state and the input: the block is flattened to
  `[1024, 32]` (row `b * 128 + t`), multiplied by the transposed transition matrix into a zero accumulator and
  unflattened; the inputs are multiplied by the transposed input matrix and repeated over the 8 trajectories; the two
  products are added. The next state (row `t + 1` of the window of 129 rows) minus this mean is squared, scaled by
  `exp (0 - lq)`, and `lq` and the literal `log 2pi` are added; the 32 coordinates are summed and the sum is
  multiplied by the literal `-1/2`. That is the diagonal Gaussian log-density of the next state, coordinate by
  coordinate in the same order of operations; the only rewriting is `0 - lq = -lq`. In exact arithmetic the
  narrowing of the matrix unit's operands to half width is the identity.
-/
import proofs.«140382_j88235808129391_1_alg».proof.Proof.PayNext
import proofs.«140382_j88235808129391_1_alg».proof.Proof.LibPlainDot
import proofs.«140382_j88235808129391_1_alg».proof.Proof.LibVectorReads
import Idealize.ShloMosaic.Lib.ValueLayout
import Idealize.ShloMosaic.Lib.Pipeline.Value

noncomputable section

open scoped BigOperators

namespace Cert.KernelIdeal.Pay

open Idealize.ShloMosaic Idealize.ShloMosaic.ValueIdx Cert.KernelIdeal Cert.KernelIdeal.Gen Cert.Spec

/-- The block flattened to `[1024, 32]`: row `b * 128 + t` is row `(b, t)` of the block. -/
theorem flatten_apply {α : Type} (x : S8x128x32.Idx → α) (b : Fin 8) (t : Fin 128) (j : Fin 32) (r : Fin 1024)
    (hr : r.val = b.val * 128 + t.val) :
    shapeCast S1024x32 x shapeCasts_S8x128x32_S1024x32 (ix2 r j) = x (ix3 b t j) :=
  shapeCast_apply x _ _ _ (by
    rw [Shape.rowMajor_val_three, Shape.rowMajor_val_two]
    show (b.val * 128 + t.val) * 32 + j.val = r.val * 32 + j.val
    rw [hr])

/-- A `[1024, 32]` array cut back into `[8, 128, 32]`: entry `(b, t)` is row `b * 128 + t`. -/
theorem unflatten_apply {α : Type} (x : S1024x32.Idx → α) (b : Fin 8) (t : Fin 128) (j : Fin 32) (r : Fin 1024)
    (hr : r.val = b.val * 128 + t.val) :
    shapeCast S8x128x32 x shapeCasts_S1024x32_S8x128x32 (ix3 b t j) = x (ix2 r j) :=
  shapeCast_apply x _ _ _ (by
    rw [Shape.rowMajor_val_three, Shape.rowMajor_val_two]
    show r.val * 32 + j.val = (b.val * 128 + t.val) * 32 + j.val
    rw [hr])

/-- The `[1024, 32]` by `[32, 32]` product into the zero matrix, at `(p, c)`. -/
theorem stateDot_apply (l : FVec Ideal S1024x32 .bf16) (r : FVec Ideal S32x32 .bf16) (p : Fin 1024) (c : Fin 32) :
    matmul dot_S1024x32_S32x32_S1024x32_1_0_0_1_n_n none l r (constant (F := Ideal) S1024x32 .f32 0x00000000#32) (ix2 p c)
      = ∑ a : Fin 32, l (ix2 p a) * r (ix2 a c) :=
  Cert.LibPlainDot.matmul_zero_plain dot_S1024x32_S32x32_S1024x32_1_0_0_1_n_n rfl rfl
    (fun i q => by
      unfold DotDims.lhsIdx
      rw [dif_neg (show ¬(0 : Fin S1024x32.rank) ∈ dot_S1024x32_S32x32_S1024x32_1_0_0_1_n_n.lhsBatch by decide),
        dif_pos (show (0 : Fin S1024x32.rank) ∈ dot_S1024x32_S32x32_S1024x32_1_0_0_1_n_n.lhsNonContracting by decide)]
      rfl)
    (fun i q => dot_S1024x32_S32x32_S1024x32_1_0_0_1_n_n.lhsIdx_val_of_single rfl i q)
    (fun i q => dot_S1024x32_S32x32_S1024x32_1_0_0_1_n_n.rhsIdx_val_of_single rfl i q)
    (fun i q => by
      unfold DotDims.rhsIdx
      rw [dif_neg (show ¬(1 : Fin S32x32.rank) ∈ dot_S1024x32_S32x32_S1024x32_1_0_0_1_n_n.rhsBatch by decide),
        dif_pos (show (1 : Fin S32x32.rank) ∈ dot_S1024x32_S32x32_S1024x32_1_0_0_1_n_n.rhsNonContracting by decide)]
      rfl)
    none l r p c

/-- The `[128, 16]` by `[16, 32]` product into the zero matrix, at `(p, c)`. -/
theorem inputDot_apply (l : FVec Ideal S128x16 .bf16) (r : FVec Ideal S16x32 .bf16) (p : Fin 128) (c : Fin 32) :
    matmul dot_S128x16_S16x32_S128x32_1_0_0_1_n_n none l r (constant (F := Ideal) S128x32 .f32 0x00000000#32) (ix2 p c)
      = ∑ a : Fin 16, l (ix2 p a) * r (ix2 a c) :=
  Cert.LibPlainDot.matmul_zero_plain dot_S128x16_S16x32_S128x32_1_0_0_1_n_n rfl rfl
    (fun i q => by
      unfold DotDims.lhsIdx
      rw [dif_neg (show ¬(0 : Fin S128x16.rank) ∈ dot_S128x16_S16x32_S128x32_1_0_0_1_n_n.lhsBatch by decide),
        dif_pos (show (0 : Fin S128x16.rank) ∈ dot_S128x16_S16x32_S128x32_1_0_0_1_n_n.lhsNonContracting by decide)]
      rfl)
    (fun i q => dot_S128x16_S16x32_S128x32_1_0_0_1_n_n.lhsIdx_val_of_single rfl i q)
    (fun i q => dot_S128x16_S16x32_S128x32_1_0_0_1_n_n.rhsIdx_val_of_single rfl i q)
    (fun i q => by
      unfold DotDims.rhsIdx
      rw [dif_neg (show ¬(1 : Fin S16x32.rank) ∈ dot_S128x16_S16x32_S128x32_1_0_0_1_n_n.rhsBatch by decide),
        dif_pos (show (1 : Fin S16x32.rank) ∈ dot_S128x16_S16x32_S128x32_1_0_0_1_n_n.rhsNonContracting by decide)]
      rfl)
    none l r p c

/-- A `[1, 128, 32]` array repeated over the 8 trajectories reads, at `(b, t, i)`, the operand at `(0, t, i)`. -/
theorem repeatLead_apply {α : Type} (x : S1x128x32.Idx → α) (b : Fin 8) (t : Fin 128) (i : Fin 32) :
    broadcastTo S8x128x32 x broadcasts_S1x128x32_S8x128x32 (ix3 b t i) = x (ix3 (0 : Fin 1) t i) :=
  broadcastTo_apply x _ (ix3 b t i) (ix3 (0 : Fin 1) t i) fun ax => by
    match ax with
    | ⟨0, _⟩ => rfl
    | ⟨1, _⟩ => rfl
    | ⟨2, _⟩ => rfl

/-- A `[1, 1, 32]` row repeated over trajectories and steps reads, at `(b, t, i)`, the row at `i`. -/
theorem repeatRow_apply {α : Type} (x : S1x1x32.Idx → α) (b : Fin 8) (t : Fin 128) (i : Fin 32) :
    broadcastTo S8x128x32 x broadcasts_S1x1x32_S8x128x32 (ix3 b t i) = x (ix3 (0 : Fin 1) (0 : Fin 1) i) :=
  broadcastTo_apply x _ (ix3 b t i) (ix3 (0 : Fin 1) (0 : Fin 1) i) fun ax => by
    match ax with
    | ⟨0, _⟩ => rfl
    | ⟨1, _⟩ => rfl
    | ⟨2, _⟩ => rfl

/-- The state part of the mean: the block flattened, multiplied by `W` into zero and cut back, at `(b, t, i)`, is the
    row `(b, t)` of the block against column `i` of `W`. -/
theorem stateMean_apply (W : FVec Ideal S32x32 .bf16) (v50 : Vec Ideal S8x128x32 .f32) (b : Fin 8) (t : Fin 128)
    (i : Fin 32) :
    shapeCast S8x128x32
        (matmul dot_S1024x32_S32x32_S1024x32_1_0_0_1_n_n none
          (truncf .bf16 (shapeCast S1024x32 v50 shapeCasts_S8x128x32_S1024x32) bitsLt_bf16_f32) W
          (constant (F := Ideal) S1024x32 .f32 0x00000000#32))
        shapeCasts_S1024x32_S8x128x32 (ix3 b t i)
      = ∑ j : Fin 32, v50 (ix3 b t j) * W (ix2 j i) := by
  have hlt : b.val * 128 + t.val < 1024 := by
    have := b.isLt
    have := t.isLt
    omega
  refine (unflatten_apply _ b t i ⟨b.val * 128 + t.val, hlt⟩ rfl).trans ?_
  refine (stateDot_apply _ W ⟨b.val * 128 + t.val, hlt⟩ i).trans ?_
  refine Finset.sum_congr rfl fun j _ => congrArg (· * W (ix2 j i)) ?_
  exact flatten_apply v50 b t j ⟨b.val * 128 + t.val, hlt⟩ rfl

/-- The input part of the mean: the inputs multiplied by `Wu` into zero, given a leading unit axis and repeated over
    the trajectories, at `(b, t, i)`, is input `t` against column `i` of `Wu`. -/
theorem inputMean_apply (Wu : FVec Ideal S16x32 .bf16) (v56 : Vec Ideal S128x16 .f32) (b : Fin 8) (t : Fin 128)
    (i : Fin 32) :
    broadcastTo S8x128x32
        (shapeCast S1x128x32
          (matmul dot_S128x16_S16x32_S128x32_1_0_0_1_n_n none (truncf .bf16 v56 bitsLt_bf16_f32) Wu
            (constant (F := Ideal) S128x32 .f32 0x00000000#32))
          shapeCasts_S128x32_S1x128x32)
        broadcasts_S1x128x32_S8x128x32 (ix3 b t i)
      = ∑ q : Fin 16, v56 (ix2 t q) * Wu (ix2 q i) := by
  refine (repeatLead_apply _ b t i).trans ?_
  refine (shapeCast_ab_1ab_apply _ shapeCasts_S128x32_S1x128x32 (0 : Fin 1) t i).trans ?_
  exact inputDot_apply _ Wu t i

/-- The transition log-densities of one trip at `(b, t)`: the diagonal Gaussian log-density of the next state
    (row `t + 1` of the window) with mean the affine map of state `t` and input `t`, and log-variance the row `v20`. -/
theorem pay5_apply (v2 : FVec Ideal S32x32 .bf16) (v8 : FVec Ideal S16x32 .bf16) (v20 : FVec Ideal S1x1x32 .f32)
    (v50 : Vec Ideal S8x128x32 .f32) (v52 : Vec Ideal S8x1x32 .f32) (v56 : Vec Ideal S128x16 .f32) (b : Fin 8) (t : Fin 128) :
    k0_pay5 (F := Ideal) v2 v8 v20 v50 v52 v56 (ix2 b t)
      = glp (shiftRows (fun s e => v50 (ix3 b s e)) (fun e => v52 (ix3 b (0 : Fin 1) e)) t)
          (fun i => affine (fun j => v2 (ix2 j i)) (fun j => v50 (ix3 b t j)) (fun q => v8 (ix2 q i)) (fun q => v56 (ix2 t q)))
          (fun d => v20 (ix3 (0 : Fin 1) (0 : Fin 1) d)) := by
  unfold k0_pay5 glp
  refine (mulf_apply _ _ (ix2 b t)).trans ?_
  refine congrArg₂ (· * ·) rfl ?_
  refine (Cert.LibVectorReads.sum_last3_apply _ _ _ _ b t).trans ?_
  refine Finset.sum_congr rfl fun i _ => ?_
  unfold gterm affine
  have e1 := stateMean_apply v2 v50 b t i
  have e2 := inputMean_apply v8 v56 b t i
  have e3 := pay4_apply v50 v52 b t i
  have e4 : broadcastTo S8x128x32 (exp (subf (broadcast S1x1x32 (FloatOps.ofBits (F := Ideal) .f32 0x00000000#32)) v20))
      broadcasts_S1x1x32_S8x128x32 (ix3 b t i) = Ideal.exp (-(v20 (ix3 (0 : Fin 1) (0 : Fin 1) i))) := by
    refine (repeatRow_apply _ b t i).trans ?_
    show Ideal.exp (Ideal.ofBits .f32 0x00000000#32 - v20 (ix3 (0 : Fin 1) (0 : Fin 1) i)) = _
    rw [Ideal.ofBits_zero_f32, zero_sub]
  have e5 := repeatRow_apply v20 b t i
  simp only [addf_apply, mulf_apply, subf_apply, broadcast_apply]
  rw [e1, e2, e3, e4, e5]
  rfl

end Cert.KernelIdeal.Pay

end
-- ==== Proof.PayObs.lean ====
/-
  One loop trip's observation terms, read at a trajectory.

  A trip works on 128 consecutive steps of each of 8 trajectories. With the states the steps arrive at (rows
  `1 … 128` of the trip's window of 129 rows) it forms two products in exact arithmetic: the next states against the
  observation matrix — the `8 × 128` rows flattened to `1024`, row `128 b + t` being trajectory `b`, step `t` — and the
  chunk's inputs against the feed-through matrix. At `(b, t, i)` their sum is the affine mean of coordinate `i` of the
  observation at step `t`. The trip then adds, for every step, the diagonal Gaussian log-density of the observation
  with that mean and the observation noise's log-variance to the step's transition term, sums over the chunk's steps
  and adds the result to the running total of trajectory `b`.

  Each layout operation is read at explicit coordinates, each sum and product where it stands; no distributivity or
  cancellation is used, so the equalities hold on the extended reals at the infinities too. The kernel's
  `exp (0 - lr)` is the density's `exp (-lr)` because `0 - x = -x`.
-/
import proofs.«140382_j88235808129391_1_alg».proof.Proof.Gen.KernelIdeal.Skeleton
import proofs.«140382_j88235808129391_1_alg».proof.Proof.Spec
import proofs.«140382_j88235808129391_1_alg».proof.Proof.LibPlainDot
import proofs.«140382_j88235808129391_1_alg».proof.Proof.LibVectorReads
import proofs.«140382_j88235808129391_1_alg».proof.Proof.PayNext
import Idealize.ShloMosaic.Lib.Pipeline.Value
import Idealize.ShloMosaic.Lib.ValueLayout

noncomputable section

open scoped BigOperators

namespace Cert.KernelIdeal.Pay

open Idealize.ShloMosaic Idealize.ShloMosaic.ValueIdx Cert.KernelIdeal Cert.KernelIdeal.Gen Cert.Spec

/-- A `[128, 32]` array given a leading unit axis and repeated over 8 leading positions reads, at `(b, t, d)`,
    the array at `(t, d)`. -/
theorem rows_repeat_apply {α : Type} (x : S128x32.Idx → α) (b : Fin 8) (t : Fin 128) (d : Fin 32) :
    broadcastTo S8x128x32 (shapeCast S1x128x32 x shapeCasts_S128x32_S1x128x32) broadcasts_S1x128x32_S8x128x32 (ix3 b t d)
      = x (ix2 t d) := by
  refine (broadcastTo_apply _ broadcasts_S1x128x32_S8x128x32 (ix3 b t d) (ix3 (0 : Fin 1) t d) fun ax => ?_).trans
    (shapeCast_ab_1ab_apply x shapeCasts_S128x32_S1x128x32 (0 : Fin 1) t d)
  match ax with
  | ⟨0, _⟩ => rfl
  | ⟨1, _⟩ => rfl
  | ⟨2, _⟩ => rfl

/-- A `[1, 1, 32]` array repeated to `[8, 128, 32]` reads, at `(b, t, d)`, the array at `(0, 0, d)`. -/
theorem lane_repeat_apply {α : Type} (x : S1x1x32.Idx → α) (b : Fin 8) (t : Fin 128) (d : Fin 32) :
    broadcastTo S8x128x32 x broadcasts_S1x1x32_S8x128x32 (ix3 b t d) = x (ix3 (0 : Fin 1) (0 : Fin 1) d) := by
  refine broadcastTo_apply _ broadcasts_S1x1x32_S8x128x32 (ix3 b t d) (ix3 (0 : Fin 1) (0 : Fin 1) d) fun ax => ?_
  match ax with
  | ⟨0, _⟩ => rfl
  | ⟨1, _⟩ => rfl
  | ⟨2, _⟩ => rfl

/-- The input product of the chunk: row `t` of the inputs against column `i` of the input matrix. -/
theorem pay7_apply (v11 : FVec Ideal S16x32 .bf16) (v56 : Vec Ideal S128x16 .f32) (t : Fin 128) (i : Fin 32) :
    k0_pay7 (F := Ideal) v11 v56 (ix2 t i) = ∑ q : Fin 16, v56 (ix2 t q) * v11 (ix2 q i) := by
  unfold k0_pay7
  exact Cert.LibPlainDot.matmul_zero_plain dot_S128x16_S16x32_S128x32_1_0_0_1_n_n rfl rfl
    (fun _ _ => rfl) (fun _ _ => rfl) (fun _ _ => rfl) (fun _ _ => rfl) none _ v11 t i

/-- The state product of the chunk: the trajectories' next states, flattened to `8 * 128` rows (row `128 b + t` is
    trajectory `b`, step `t`), against column `i` of the state matrix, and unflattened. -/
theorem pay6_apply (v5 : FVec Ideal S32x32 .bf16) (v50 : Vec Ideal S8x128x32 .f32) (v52 : Vec Ideal S8x1x32 .f32)
    (b : Fin 8) (t : Fin 128) (i : Fin 32) :
    k0_pay6 (F := Ideal) v5 v50 v52 (ix3 b t i)
      = ∑ j : Fin 32, shiftRows (fun s e => v50 (ix3 b s e)) (fun e => v52 (ix3 b (0 : Fin 1) e)) t j * v5 (ix2 j i) := by
  have hp : b.val * 128 + t.val < 1024 := by omega
  unfold k0_pay6
  refine (shapeCast_apply _ shapeCasts_S1024x32_S8x128x32 (ix3 b t i) (ix2 (⟨b.val * 128 + t.val, hp⟩ : Fin 1024) i) ?_).trans ?_
  · rw [Shape.rowMajor_val_two, Shape.rowMajor_val_three]
    rfl
  refine (Cert.LibPlainDot.matmul_zero_plain dot_S1024x32_S32x32_S1024x32_1_0_0_1_n_n rfl rfl
    (fun _ _ => rfl) (fun _ _ => rfl) (fun _ _ => rfl) (fun _ _ => rfl) none _ v5 ⟨b.val * 128 + t.val, hp⟩ i).trans ?_
  refine Finset.sum_congr rfl fun j _ => congrArg (fun x => x * v5 (ix2 j i)) ?_
  refine (shapeCast_apply (k0_pay4 (F := Ideal) v50 v52) shapeCasts_S8x128x32_S1024x32
    (ix2 (⟨b.val * 128 + t.val, hp⟩ : Fin 1024) j) (ix3 b t j) ?_).trans (pay4_apply v50 v52 b t j)
  rw [Shape.rowMajor_val_two, Shape.rowMajor_val_three]
  rfl

/-- One trip's contribution over ANY state product `P` and input product `Q`: for trajectory `b` the running total
    gains, for each of the chunk's 128 steps, the transition term already computed plus the observation term — `-1/2`
    times the sum over the 32 coordinates of the squared residual of the observation against `P + Q`, scaled by
    `exp (-lr)`, plus `lr` and the constant. -/
theorem pay2_eq (v21 : FVec Ideal S1x1x32 .f32) (acc : FVec Ideal S8 .f32) (v58 : Vec Ideal S128x32 .f32)
    (v81 : FVec Ideal S8x128 .f32) (P : FVec Ideal S8x128x32 .f32) (Q : FVec Ideal S128x32 .f32) (b : Fin 8) :
    k0_pay2 (F := Ideal) v21 acc v58 v81 P Q (ix1 b)
      = acc (ix1 b) + ∑ t : Fin 128, (v81 (ix2 b t)
          + negHalf * ∑ d : Fin 32, gterm (v58 (ix2 t d)) (P (ix3 b t d) + Q (ix2 t d))
              (v21 (ix3 (0 : Fin 1) (0 : Fin 1) d))) := by
  unfold k0_pay2
  refine congrArg (fun x => acc (ix1 b) + x) ?_
  refine (Cert.LibVectorReads.sum_last2_apply _ reduces_S8x128_S8 (.inl rfl) rfl b).trans ?_
  refine Finset.sum_congr rfl fun t _ => congrArg (fun x => v81 (ix2 b t) + x) ?_
  refine congrArg (fun x => negHalf * x) ?_
  refine (Cert.LibVectorReads.sum_last3_apply _ reduces_S8x128x32_S8x128 (.inl rfl) rfl b t).trans ?_
  refine Finset.sum_congr rfl fun d _ => ?_
  have eX := rows_repeat_apply v58 b t d
  have eQ := rows_repeat_apply Q b t d
  have eV := lane_repeat_apply v21 b t d
  have eE := lane_repeat_apply
    (exp (subf (broadcast S1x1x32 (Scalar.ofBits (F := Ideal) .f32 0x00000000#32)) v21)) b t d
  show (_ - (P (ix3 b t d) + _)) * (_ - (P (ix3 b t d) + _)) * _ + _ + _ = _
  rw [eX, eQ, eV, eE]
  show _ * _ * Ideal.exp (Ideal.ofBits .f32 0x00000000#32 - v21 (ix3 (0 : Fin 1) (0 : Fin 1) d)) + _ + _ = _
  rw [Ideal.ofBits_zero_f32, zero_sub]
  rfl

/-- One trip's contribution, with the two products read as sums: the observation term's mean at step `t`, coordinate
    `i`, is the affine image of the NEXT state (row `t + 1` of the 129-row window) and the step's input. -/
theorem pay2_apply (v5 : FVec Ideal S32x32 .bf16) (v11 : FVec Ideal S16x32 .bf16) (v21 : FVec Ideal S1x1x32 .f32)
    (acc : FVec Ideal S8 .f32) (v58 : Vec Ideal S128x32 .f32) (v81 : FVec Ideal S8x128 .f32)
    (v50 : Vec Ideal S8x128x32 .f32) (v52 : Vec Ideal S8x1x32 .f32) (v56 : Vec Ideal S128x16 .f32) (b : Fin 8) :
    k0_pay2 (F := Ideal) v21 acc v58 v81 (k0_pay6 v5 v50 v52) (k0_pay7 v11 v56) (ix1 b)
      = acc (ix1 b) + ∑ t : Fin 128, (v81 (ix2 b t)
          + glp (fun d => v58 (ix2 t d))
              (fun i => affine (fun j => v5 (ix2 j i))
                          (shiftRows (fun s e => v50 (ix3 b s e)) (fun e => v52 (ix3 b (0 : Fin 1) e)) t)
                          (fun q => v11 (ix2 q i)) (fun q => v56 (ix2 t q)))
              (fun d => v21 (ix3 (0 : Fin 1) (0 : Fin 1) d))) := by
  refine (pay2_eq v21 acc v58 v81 (k0_pay6 v5 v50 v52) (k0_pay7 v11 v56) b).trans ?_
  refine congrArg (fun x => acc (ix1 b) + x)
    (Finset.sum_congr rfl fun t _ => congrArg (fun x => v81 (ix2 b t) + x) ?_)
  unfold glp
  refine congrArg (fun x => negHalf * x) (Finset.sum_congr rfl fun d _ => ?_)
  rw [pay6_apply, pay7_apply]
  rfl

end Cert.KernelIdeal.Pay

end
-- ==== Proof.LibBlockSums.lean ====
/-
  A sum over a long axis taken block by block, as a running sum.

  Three facts in any commutative additive monoid (so in particular on the extended reals, where nothing beyond
  commutativity and associativity of + is used), and two float literals at exact arithmetic.

  * A sum over `Fin (A * B)` is the sum over the `A` blocks of the `B` block sums (`sum_blocks`).
  * The left-nested running sum `((z + s 0) + s 1) + … + s n` is `z` plus the sum of `s` over `0 … n` (`runSum_eq`).
  * Dividing by the literal 0.5 is multiplying by the literal 2.0, on every extended real (`div_half`).
-/
import Idealize.ShloMosaic.PureOps.Ideal.Laws

noncomputable section

open scoped BigOperators

namespace Cert.LibBlockSums

open Idealize.ShloMosaic

/-- A sum over `A * B` consecutive indices, block by block. -/
theorem sum_blocks {M : Type*} [AddCommMonoid M] (A B : Nat) (f : Fin (A * B) → M) :
    ∑ j, f j = ∑ a : Fin A, ∑ b : Fin B, f ⟨a.val * B + b.val, by
      have ha := a.isLt; have hb := b.isLt
      calc a.val * B + b.val < a.val * B + B := by omega
        _ = (a.val + 1) * B := by ring
        _ ≤ A * B := Nat.mul_le_mul_right B ha⟩ := by
  rw [← Equiv.sum_comp (finProdFinEquiv (m := A) (n := B)) f, Fintype.sum_prod_type]
  refine Finset.sum_congr rfl fun a _ => Finset.sum_congr rfl fun b _ => congrArg f (Fin.ext ?_)
  simp only [finProdFinEquiv_apply_val]
  rw [Nat.mul_comm]; omega

/-- The left-nested running sum of `s` started from `z`. -/
def runSum {M : Type*} [Add M] (z : M) (s : Nat → M) : Nat → M
  | 0 => z + s 0
  | n + 1 => runSum z s n + s (n + 1)

theorem runSum_eq {M : Type*} [AddCommMonoid M] (z : M) (s : Nat → M) (n : Nat) :
    runSum z s n = z + ∑ j ∈ Finset.range (n + 1), s j := by
  induction n with
  | zero => simp [runSum]
  | succ n ih => rw [runSum, ih, Finset.sum_range_succ _ (n + 1), add_assoc]

/-- Started from zero and run over all `A` blocks it is the sum over the blocks. -/
theorem runSum_zero_last {M : Type*} [AddCommMonoid M] (A : Nat) (s : Nat → M) :
    runSum 0 s A = ∑ a : Fin (A + 1), s a.val := by
  rw [runSum_eq, zero_add, Finset.sum_range]

/-- The float literal 2.0. -/
theorem ofBits_two : Ideal.ofBits .f32 0x40000000#32 = ((2 : ℝ) : EReal) := by
  simp [Ideal.ofBits, Ideal.ieee, -EReal.coe_mul]; norm_num

/-- The float literal 0.5. -/
theorem ofBits_half : Ideal.ofBits .f32 0x3F000000#32 = ((1 / 2 : ℝ) : EReal) := by
  simp [Ideal.ofBits, Ideal.ieee, -EReal.coe_mul]; norm_num

/-- On every extended real, the quotient by 0.5 is the product with 2.0. -/
theorem div_half (x : EReal) :
    Ideal.div x (Ideal.ofBits .f32 0x3F000000#32) = x * Ideal.ofBits .f32 0x40000000#32 := by
  rw [ofBits_half, ofBits_two, Ideal.div_coe (by norm_num : (1 / 2 : ℝ) ≠ 0)]
  norm_num

end Cert.LibBlockSums

end
-- ==== Proof.LibBlockedSum.lean ====
/-
  A long contraction taken a block at a time.

  A tiled matrix-vector product does not form `∑ k, x k * w (n, k)` in one step. It walks the contracted axis in
  `A` blocks of `B` indices; it starts an accumulator at zero, and at block `j` adds that block's partial product
  `∑ i : Fin B, x (j * B + i) * w (n, j * B + i)`. The facts below say that this accumulation is the whole sum. They
  hold in every commutative additive monoid, so in particular on the extended reals, where a sum may be infinite
  and no finiteness is asked for: only commutativity and associativity of `+` are used.

  * `accum s n` is the accumulator after `n` steps: `accum s 0 = 0`, `accum s (n + 1) = accum s n + s n`; it is the
    sum of the first `n` terms (`accum_eq_sum_range`, `accum_eq_sum_fin`).
  * A sum over `Fin (A * B)` is the accumulator after `A` steps whose `j`-th term is the sum over block `j`
    (`sum_eq_accum_blocks`; with the blocks given separately and only required to agree with the long family,
    `sum_eq_accum_of_blocks`).
  * One step's term: a `1 × B` row times the TRANSPOSE of an `N × B` block, accumulated into the zero row and read
    at exact arithmetic, is at column `n` the sum over `i : Fin B` of `x (0, i) * w (n, i)`
    (`matmul_transpose_zero`), also when both factors are first narrowed to a shorter float format, which exact
    arithmetic does not see (`matmul_transpose_truncf_zero`).
-/
import Idealize.ShloMosaic.PureOps.Ideal.Laws
import Idealize.ShloMosaic.Lib.ValueIdx
import Idealize.ShloMosaic.Lib.Pipeline.Value
import proofs.«140382_j88235808129391_1_alg».proof.Proof.LibBlockSums
import proofs.«140382_j88235808129391_1_alg».proof.Proof.LibPlainDot

noncomputable section

open scoped BigOperators

namespace Cert.LibBlockedSum

open Idealize.ShloMosaic Idealize.ShloMosaic.ValueIdx

/-- The accumulator after `n` steps, started from zero: step `j` adds the term `s j`. -/
def accum {M : Type*} [AddCommMonoid M] (s : Nat → M) : Nat → M
  | 0 => 0
  | n + 1 => accum s n + s n

/-- Before any step the accumulator is zero. -/
theorem accum_zero {M : Type*} [AddCommMonoid M] (s : Nat → M) : accum s 0 = 0 := rfl

/-- One step adds that step's term to the accumulator. -/
theorem accum_succ {M : Type*} [AddCommMonoid M] (s : Nat → M) (n : Nat) : accum s (n + 1) = accum s n + s n := rfl

/-- The accumulator after `n` steps is the sum of the first `n` terms. -/
theorem accum_eq_sum_range {M : Type*} [AddCommMonoid M] (s : Nat → M) (n : Nat) :
    accum s n = ∑ j ∈ Finset.range n, s j := by
  induction n with
  | zero => rfl
  | succ n ih => rw [accum_succ, ih, Finset.sum_range_succ]

/-- The same, the steps indexed by `Fin n`. -/
theorem accum_eq_sum_fin {M : Type*} [AddCommMonoid M] (s : Nat → M) (n : Nat) :
    accum s n = ∑ j : Fin n, s j.val := by
  rw [accum_eq_sum_range, Finset.sum_range]

/-- The accumulator depends only on the terms of the steps taken. -/
theorem accum_congr {M : Type*} [AddCommMonoid M] (s s' : Nat → M) (n : Nat) (h : ∀ j, j < n → s j = s' j) :
    accum s n = accum s' n := by
  rw [accum_eq_sum_range, accum_eq_sum_range]
  exact Finset.sum_congr rfl fun j hj => h j (Finset.mem_range.1 hj)

/-- The position `a * B + b` of entry `b` of block `a` lies below `A * B`. -/
theorem block_pos_lt {A B : Nat} (a : Fin A) (b : Fin B) : a.val * B + b.val < A * B := by
  have ha := a.isLt; have hb := b.isLt
  calc a.val * B + b.val < a.val * B + B := by omega
    _ = (a.val + 1) * B := by ring
    _ ≤ A * B := Nat.mul_le_mul_right B ha

/-- A sum over `A * B` consecutive indices is the accumulator after `A` steps, when the term of step `a` is the sum
    of a block `g a` of `B` entries and entry `b` of block `a` is the long family's entry `a * B + b`. The blocks are a
    separate family, so that each may be named the way its reader finds it (a window's block read at an index
    inside it); outside the `A` blocks `g` is not constrained. -/
theorem sum_eq_accum_of_blocks {M : Type*} [AddCommMonoid M] (A B : Nat) (f : Fin (A * B) → M) (g : Nat → Fin B → M)
    (hg : ∀ (a : Fin A) (b : Fin B), g a.val b = f ⟨a.val * B + b.val, block_pos_lt a b⟩) :
    ∑ k, f k = accum (fun j => ∑ i : Fin B, g j i) A := by
  rw [accum_eq_sum_fin, Cert.LibBlockSums.sum_blocks A B f]
  exact Finset.sum_congr rfl fun a _ => Finset.sum_congr rfl fun b _ => (hg a b).symm

/-- The blocks read off the long family itself: entry `i` of block `j` is entry `j * B + i`, and a position past the
    end (no step reaches one) reads as zero. -/
def blockOf {M : Type*} [AddCommMonoid M] (A B : Nat) (f : Fin (A * B) → M) (j : Nat) (i : Fin B) : M :=
  if h : j * B + i.val < A * B then f ⟨j * B + i.val, h⟩ else 0

/-- Inside the `A` blocks `blockOf` is the long family's entry. -/
theorem blockOf_eq {M : Type*} [AddCommMonoid M] (A B : Nat) (f : Fin (A * B) → M) (a : Fin A) (b : Fin B) :
    blockOf A B f a.val b = f ⟨a.val * B + b.val, block_pos_lt a b⟩ :=
  dif_pos (block_pos_lt a b)

/-- A sum over `A * B` consecutive indices is the accumulator after `A` steps of its own block sums. -/
theorem sum_eq_accum_blocks {M : Type*} [AddCommMonoid M] (A B : Nat) (f : Fin (A * B) → M) :
    ∑ k, f k = accum (fun j => ∑ i : Fin B, blockOf A B f j i) A :=
  sum_eq_accum_of_blocks A B f (blockOf A B f) (blockOf_eq A B f)

/-- A transposed `N × B` block read at `(i, n)` is the block at `(n, i)`. -/
theorem transpose_swap_apply {α : Type} {N B : Nat} (w : (⟨2, ![N, B]⟩ : Shape).Idx → α)
    (ht : Shape.Transposes ⟨2, ![N, B]⟩ [1, 0] ⟨2, ![B, N]⟩) (i : Fin B) (n : Fin N) :
    transpose ⟨2, ![B, N]⟩ [1, 0] w ht (ix2 i n) = w (ix2 n i) :=
  transpose_apply [1, 0] w ht (ix2 i n) (ix2 n i) (fun b => by
    match b with
    | ⟨0, _⟩ => rfl
    | ⟨1, _⟩ => rfl)

/-- One step's term of a tiled `y = x · Wᵀ`: the `R × B` rows `x` times the transpose of the `N × B` block `w`,
    accumulated into the zero matrix and read at `(p, n)` in exact arithmetic, is `∑ i, x (p, i) * w (n, i)`. The
    hypotheses `hl0 … hr1` say the product's dimension numbers are the plain ones (rows by `B` times `B` by
    columns, nothing batched); the transposition is the separate operation in front of it. -/
theorem matmul_transpose_zero {R N B : Nat} {φ₁ φ₂ : FTy}
    (D : DotDims ⟨2, ![R, B]⟩ ⟨2, ![B, N]⟩ ⟨2, ![R, N]⟩) (hr : D.contr.rank = 1)
    (hs : D.contr.size ⟨0, by omega⟩ = B)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (x : FVec Ideal ⟨2, ![R, B]⟩ φ₁) (w : FVec Ideal ⟨2, ![N, B]⟩ φ₂)
    (ht : Shape.Transposes ⟨2, ![N, B]⟩ [1, 0] ⟨2, ![B, N]⟩) (p : Fin R) (n : Fin N) :
    FloatOps.matmul D prec x (transpose ⟨2, ![B, N]⟩ [1, 0] w ht) (constant ⟨2, ![R, N]⟩ .f32 0x00000000#32) (ix2 p n)
      = ∑ i : Fin B, x (ix2 p i) * w (ix2 n i) := by
  rw [Cert.LibPlainDot.matmul_zero_plain D hr hs hl0 hl1 hr0 hr1 prec x _ p n]
  exact Finset.sum_congr rfl fun i _ => by rw [transpose_swap_apply w ht i n]

/-- The same step when both factors are first narrowed from `φ` to a shorter format `ψ` (a matrix unit fed
    half-width operands): exact arithmetic does not see the narrowing, so the term is still
    `∑ i, x (p, i) * w (n, i)` of the unnarrowed factors. -/
theorem matmul_transpose_truncf_zero {R N B : Nat} {φ ψ : FTy} (hψ : ψ.bits < φ.bits)
    (D : DotDims ⟨2, ![R, B]⟩ ⟨2, ![B, N]⟩ ⟨2, ![R, N]⟩) (hr : D.contr.rank = 1)
    (hs : D.contr.size ⟨0, by omega⟩ = B)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (x : FVec Ideal ⟨2, ![R, B]⟩ φ) (w : FVec Ideal ⟨2, ![N, B]⟩ φ)
    (ht : Shape.Transposes ⟨2, ![N, B]⟩ [1, 0] ⟨2, ![B, N]⟩) (p : Fin R) (n : Fin N) :
    FloatOps.matmul D prec (truncf ψ x hψ : FVec Ideal ⟨2, ![R, B]⟩ ψ)
        (transpose ⟨2, ![B, N]⟩ [1, 0] (truncf ψ w hψ : FVec Ideal ⟨2, ![N, B]⟩ ψ) ht)
        (constant ⟨2, ![R, N]⟩ .f32 0x00000000#32) (ix2 p n)
      = ∑ i : Fin B, x (ix2 p i) * w (ix2 n i) := by
  rw [matmul_transpose_zero D hr hs hl0 hl1 hr0 hr1 prec _ _ ht p n]
  rfl

end Cert.LibBlockedSum

end
-- ==== Proof.TripSum.lean ====
/-
  The block the body stores is the joint log-density of its 8 trajectories.

  The loop carries, for trajectory `b` of the block, the running total of the step terms: trip `k` adds the sum over
  its 128 steps `128 k … 128 k + 127` of the transition term plus the observation term. After the 32 trips the
  carried value is therefore the sum over all 4096 steps, taken 128 at a time; adding the first-state term gives the
  trajectory's joint log-density. Only commutativity and associativity of addition on the extended reals are used.
-/
import proofs.«140382_j88235808129391_1_alg».proof.Proof.BlockReads
import proofs.«140382_j88235808129391_1_alg».proof.Proof.PayInit
import proofs.«140382_j88235808129391_1_alg».proof.Proof.PayTrans
import proofs.«140382_j88235808129391_1_alg».proof.Proof.PayObs
import proofs.«140382_j88235808129391_1_alg».proof.Proof.LibBlockedSum
import proofs.«140382_j88235808129391_1_alg».proof.Proof.Spec

noncomputable section

open scoped BigOperators
open Idealize.ShloMosaic Idealize.ShloMosaic.TcCoe Idealize.SL.Sem Idealize.ShloMosaic.ValueIdx

namespace Cert.KernelIdeal.KValue

open Cert.KernelIdeal Cert.KernelIdeal.Gen Cert.KernelIdeal.RunFinds Cert.KernelIdeal.Pay Cert.Spec Cert.LibBlockedSum

/-- Rows `1 … 128` of the 129-row window trip `k` reads are rows `128 k + 1 … 128 k + 128` of the block. -/
theorem shift_eq (X : Vec Ideal S8x4097x32 .f32) (k : Fin k0_t1_loop.trips) (b : Fin 8) (t : Fin 128) :
    shiftRows (fun s e => rowsAt X k (ix3 b s e)) (fun e => rowAfter X k (ix3 b (0 : Fin 1) e)) t
      = fun e => X (ix3 b (⟨128 * k.val + t.val + 1, by have := trip_lt k; have := t.isLt; omega⟩ : Fin 4097) e) := by
  unfold shiftRows
  split
  · rename_i h
    funext e
    exact rowsAt_apply X k b ⟨t.val + 1, h⟩ e
  · rename_i h
    funext e
    rw [rowAfter_apply]
    have ht : t.val = 127 := by have := t.isLt; omega
    exact congrArg (fun s => X (ix3 b s e)) (Fin.ext (by show 128 * k.val + 128 = 128 * k.val + t.val + 1; omega))

/-- The step terms of one trajectory of the block, the operand blocks read as the model's matrices and rows. -/
def stepOf (x0 : Vec Ideal S8x4097x32 .f32) (x1 : Vec Ideal S4096x16 .f32) (x2 : Vec Ideal S4096x32 .f32)
    (x3 : Vec Ideal S32x32 .f32) (x4 : Vec Ideal S16x32 .f32) (x5 : Vec Ideal S32x32 .f32) (x6 : Vec Ideal S16x32 .f32)
    (x7 x8 : Vec Ideal S1x32 .f32) (b : Fin 8) : Fin (32 * 128) → EReal := fun t =>
  stepLp (fun s d => x0 (ix3 b s d)) (fun s q => x1 (ix2 s q)) (fun s d => x2 (ix2 s d))
    (fun a j => x3 (ix2 j a)) (fun a q => x4 (ix2 q a)) (fun d => x7 (ix2 (0 : Fin 1) d))
    (fun a j => x5 (ix2 j a)) (fun a q => x6 (ix2 q a)) (fun d => x8 (ix2 (0 : Fin 1) d)) t

/-- One step of trip `k`: the transition term the trip computes first plus the observation term is the model's step
    term at step `128 k + t`. -/
theorem step_eq (x0 : Vec Ideal S8x4097x32 .f32) (x1 : Vec Ideal S4096x16 .f32) (x2 : Vec Ideal S4096x32 .f32)
    (x3 : Vec Ideal S32x32 .f32) (x4 : Vec Ideal S16x32 .f32) (x5 : Vec Ideal S32x32 .f32) (x6 : Vec Ideal S16x32 .f32)
    (x7 x8 : Vec Ideal S1x32 .f32) (k : Fin k0_t1_loop.trips) (b : Fin 8) (t : Fin 128) :
    k0_pay5 (F := Ideal) (k0_pay8 x3) (k0_pay10 x4) (k0_pay12 x7) (rowsAt x0 k) (rowAfter x0 k) (inputsAt x1 k) (ix2 b t)
      + glp (fun d => obsAt x2 k (ix2 t d))
          (fun i => affine (fun j => k0_pay9 (F := Ideal) x5 (ix2 j i))
            (shiftRows (fun s e => rowsAt x0 k (ix3 b s e)) (fun e => rowAfter x0 k (ix3 b (0 : Fin 1) e)) t)
            (fun q => k0_pay11 (F := Ideal) x6 (ix2 q i)) (fun q => inputsAt x1 k (ix2 t q)))
          (fun d => k0_pay13 (F := Ideal) x8 (ix3 (0 : Fin 1) (0 : Fin 1) d))
      = blockOf 32 128 (stepOf x0 x1 x2 x3 x4 x5 x6 x7 x8 b) k.val t := by
  have hk := trip_lt k
  have ht := t.isLt
  have hpos : k.val * 128 + t.val < 32 * 128 := by omega
  rw [blockOf, dif_pos hpos, pay5_apply, shift_eq]
  simp only [pay8_apply, pay9_apply, pay10_apply, pay11_apply, pay12_apply, pay13_apply, rowsAt_apply, inputsAt_apply,
    obsAt_apply]
  unfold stepOf stepLp
  have e1 : (Fin.succ (⟨k.val * 128 + t.val, hpos⟩ : Fin 4096))
      = (⟨128 * k.val + t.val + 1, by omega⟩ : Fin 4097) := Fin.ext (by show k.val * 128 + t.val + 1 = 128 * k.val + t.val + 1; omega)
  have e2 : (Fin.castSucc (⟨k.val * 128 + t.val, hpos⟩ : Fin 4096))
      = (⟨128 * k.val + t.val, by omega⟩ : Fin 4097) := Fin.ext (by show k.val * 128 + t.val = 128 * k.val + t.val; omega)
  have e3 : (⟨k.val * 128 + t.val, hpos⟩ : Fin 4096) = (⟨128 * k.val + t.val, by omega⟩ : Fin 4096) :=
    Fin.ext (by show k.val * 128 + t.val = 128 * k.val + t.val; omega)
  rw [e1, e2, e3]

/-- The value the loop carries into trip `n`, at trajectory `b`: the initial value plus the block sums of the trips
    made so far. -/
theorem carried_apply (x0 : Vec Ideal S8x4097x32 .f32) (x1 : Vec Ideal S4096x16 .f32) (x2 : Vec Ideal S4096x32 .f32)
    (x3 : Vec Ideal S32x32 .f32) (x4 : Vec Ideal S16x32 .f32) (x5 : Vec Ideal S32x32 .f32) (x6 : Vec Ideal S16x32 .f32)
    (x7 x8 : Vec Ideal S1x32 .f32) (init : FVec Ideal S8 .f32) (b : Fin 8) :
    ∀ n : ℕ, n ≤ k0_t1_loop.trips →
      carried (k0_pay8 x3) (k0_pay9 x5) (k0_pay10 x4) (k0_pay11 x6) (k0_pay12 x7) (k0_pay13 x8) x0 x1 x2 init n (ix1 b)
        = init (ix1 b)
          + accum (fun j => ∑ t : Fin 128, blockOf 32 128 (stepOf x0 x1 x2 x3 x4 x5 x6 x7 x8 b) j t) n := by
  intro n
  induction n with
  | zero => intro _; rw [accum_zero, add_zero]; rfl
  | succ n ih =>
    intro hn
    have h : n < k0_t1_loop.trips := hn
    rw [carried, dif_pos h, accum_succ, ← add_assoc, ← ih (Nat.le_of_lt h)]
    unfold tripFn
    rw [pay2_apply]
    exact congrArg _ (Finset.sum_congr rfl fun t _ => step_eq x0 x1 x2 x3 x4 x5 x6 x7 x8 ⟨n, h⟩ b t)

/-- THE BLOCK: entry `b` of what the body stores is the joint log-density of trajectory `b` of its state block, with
    the transposed matrices read back as the model's. -/
theorem block_value (c : Dev nD) (i : grid0.Coords) (arg1 : Memref sig .tc .vmem S8x4097x32 .f32) (harg1 : arg1.IsWhole) (arg2 : Memref sig .tc .vmem S4096x16 .f32) (harg2 : arg2.IsWhole) (arg3 : Memref sig .tc .vmem S4096x32 .f32) (harg3 : arg3.IsWhole) (arg4 : Memref sig .tc .vmem S32x32 .f32) (harg4 : arg4.IsWhole) (arg5 : Memref sig .tc .vmem S16x32 .f32) (harg5 : arg5.IsWhole) (arg6 : Memref sig .tc .vmem S32x32 .f32) (harg6 : arg6.IsWhole) (arg7 : Memref sig .tc .vmem S16x32 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S8x1 .f32) (harg12 : arg12.IsWhole)
    (x0 : Vec Ideal S8x4097x32 .f32) (x1 : Vec Ideal S4096x16 .f32) (x2 : Vec Ideal S4096x32 .f32)
    (x3 : Vec Ideal S32x32 .f32) (x4 : Vec Ideal S16x32 .f32) (x5 : Vec Ideal S32x32 .f32) (x6 : Vec Ideal S16x32 .f32)
    (x7 x8 x9 x10 : Vec Ideal S1x32 .f32) (b : Fin 8) :
    out0_A_11 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 (ix2 b (0 : Fin 1))
      = total (fun s d => x0 (ix3 b s d)) (fun s q => x1 (ix2 s q)) (fun s d => x2 (ix2 s d))
          (fun a j => x3 (ix2 j a)) (fun a q => x4 (ix2 q a)) (fun d => x7 (ix2 (0 : Fin 1) d))
          (fun a j => x5 (ix2 j a)) (fun a q => x6 (ix2 q a)) (fun d => x8 (ix2 (0 : Fin 1) d))
          (fun d => x9 (ix2 (0 : Fin 1) d)) (fun d => x10 (ix2 (0 : Fin 1) d)) := by
  rw [out_eq, pay3_apply, pay14_apply, carried_apply x0 x1 x2 x3 x4 x5 x6 x7 x8 _ b _ (Nat.le_refl _), pay1_apply,
    zero_add]
  unfold total glp
  simp only [firstRow_apply]
  refine congrArg _ ?_
  rw [congrArg (accum _) trips_eq]
  exact (sum_eq_accum_blocks 32 128 (stepOf x0 x1 x2 x3 x4 x5 x6 x7 x8 b)).symm

end Cert.KernelIdeal.KValue

end
-- ==== Proof.HostPrefix.lean ====
/-
  What the host operations before the kernel call leave in the buffers the call's windows stage.

  The program transposes the four weight matrices (two `[32, 32]`, two `[32, 16]` to `[16, 32]`) and views the four
  vectors of length 32 as one row `[1, 32]`; each result buffer is written once and by that operation only. So a
  transposed matrix reads, at `(j, i)`, the argument at `(i, j)`, and a row reads, at `(0, d)`, the argument at `d`.
  Each statement holds for any arithmetic: the operations only move entries.
-/
import proofs.«140382_j88235808129391_1_alg».proof.Proof.Gen.KernelIdeal.Frame
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.HostPrefix

open Idealize.ShloMosaic Idealize.ShloMosaic.TcCoe Idealize.SL.Sem Idealize.ShloMosaic.ValueIdx Cert.KernelIdeal
  Cert.KernelIdeal.Gen

variable {F : FTy → Type} [FloatOps F] (m : (ℓ : Loc nD τ sig) → Buf (Elt F) ℓ)

/-! ## The transposed weight matrices -/

theorem V_v0_eq (c : Dev nD) :
    (V m c main_v0 : S32x32.Idx → Elt F .f32)
      = transpose S32x32 [1, 0] (m ((c.tc : Thread nD τ).loc main_arg3) : S32x32.Idx → Elt F .f32)
          transposes_S32x32_S32x32_1_0 := by
  show StableHlo.after hostOps0 (fun b => m (c, b)) (Proc.devRef .tc main_v0) = _
  after_results

/-- The transition matrix transposed: entry `(j, i)` is the argument's `(i, j)`. -/
theorem V_v0 (c : Dev nD) (j : Fin 32) (i : Fin 32) :
    (V m c main_v0 : S32x32.Idx → Elt F .f32) (ix2 j i)
      = (m ((c.tc : Thread nD τ).loc main_arg3) : S32x32.Idx → Elt F .f32) (ix2 i j) := by
  rw [V_v0_eq]
  exact transpose_ix2_apply _ _ j i

theorem V_v1_eq (c : Dev nD) :
    (V m c main_v1 : S32x32.Idx → Elt F .f32)
      = transpose S32x32 [1, 0] (m ((c.tc : Thread nD τ).loc main_arg6) : S32x32.Idx → Elt F .f32)
          transposes_S32x32_S32x32_1_0 := by
  show StableHlo.after hostOps0 (fun b => m (c, b)) (Proc.devRef .tc main_v1) = _
  after_results

/-- The observation matrix transposed. -/
theorem V_v1 (c : Dev nD) (j : Fin 32) (i : Fin 32) :
    (V m c main_v1 : S32x32.Idx → Elt F .f32) (ix2 j i)
      = (m ((c.tc : Thread nD τ).loc main_arg6) : S32x32.Idx → Elt F .f32) (ix2 i j) := by
  rw [V_v1_eq]
  exact transpose_ix2_apply _ _ j i

theorem V_v2_eq (c : Dev nD) :
    (V m c main_v2 : S16x32.Idx → Elt F .f32)
      = transpose S16x32 [1, 0] (m ((c.tc : Thread nD τ).loc main_arg4) : S32x16.Idx → Elt F .f32)
          transposes_S32x16_S16x32_1_0 := by
  show StableHlo.after hostOps0 (fun b => m (c, b)) (Proc.devRef .tc main_v2) = _
  after_results

/-- The transition's input matrix transposed: entry `(q, i)` is the argument's `(i, q)`. -/
theorem V_v2 (c : Dev nD) (q : Fin 16) (i : Fin 32) :
    (V m c main_v2 : S16x32.Idx → Elt F .f32) (ix2 q i)
      = (m ((c.tc : Thread nD τ).loc main_arg4) : S32x16.Idx → Elt F .f32) (ix2 i q) := by
  rw [V_v2_eq]
  exact transpose_ix2_apply _ _ q i

theorem V_v3_eq (c : Dev nD) :
    (V m c main_v3 : S16x32.Idx → Elt F .f32)
      = transpose S16x32 [1, 0] (m ((c.tc : Thread nD τ).loc main_arg7) : S32x16.Idx → Elt F .f32)
          transposes_S32x16_S16x32_1_0 := by
  show StableHlo.after hostOps0 (fun b => m (c, b)) (Proc.devRef .tc main_v3) = _
  after_results

/-- The observation's input matrix transposed. -/
theorem V_v3 (c : Dev nD) (q : Fin 16) (i : Fin 32) :
    (V m c main_v3 : S16x32.Idx → Elt F .f32) (ix2 q i)
      = (m ((c.tc : Thread nD τ).loc main_arg7) : S32x16.Idx → Elt F .f32) (ix2 i q) := by
  rw [V_v3_eq]
  exact transpose_ix2_apply _ _ q i

/-! ## The vectors viewed as one row -/

theorem V_v4_eq (c : Dev nD) :
    (V m c main_v4 : S1x32.Idx → Elt F .f32)
      = shapeCast S1x32 (m ((c.tc : Thread nD τ).loc main_arg5) : S32.Idx → Elt F .f32) shapeCasts_S32_S1x32 := by
  show StableHlo.after hostOps0 (fun b => m (c, b)) (Proc.devRef .tc main_v4) = _
  after_results
  rfl

/-- A vector of length 32 viewed as a row `[1, 32]`: entry `(0, d)` is the argument's `d`. -/
theorem V_v4 (c : Dev nD) (d : Fin 32) :
    (V m c main_v4 : S1x32.Idx → Elt F .f32) (ix2 (0 : Fin 1) d)
      = (m ((c.tc : Thread nD τ).loc main_arg5) : S32.Idx → Elt F .f32) (ix1 d) := by
  rw [V_v4_eq]
  exact shapeCast_a_1a_apply _ _ (0 : Fin 1) d

theorem V_v5_eq (c : Dev nD) :
    (V m c main_v5 : S1x32.Idx → Elt F .f32)
      = shapeCast S1x32 (m ((c.tc : Thread nD τ).loc main_arg8) : S32.Idx → Elt F .f32) shapeCasts_S32_S1x32 := by
  show StableHlo.after hostOps0 (fun b => m (c, b)) (Proc.devRef .tc main_v5) = _
  after_results
  rfl

theorem V_v5 (c : Dev nD) (d : Fin 32) :
    (V m c main_v5 : S1x32.Idx → Elt F .f32) (ix2 (0 : Fin 1) d)
      = (m ((c.tc : Thread nD τ).loc main_arg8) : S32.Idx → Elt F .f32) (ix1 d) := by
  rw [V_v5_eq]
  exact shapeCast_a_1a_apply _ _ (0 : Fin 1) d

theorem V_v6_eq (c : Dev nD) :
    (V m c main_v6 : S1x32.Idx → Elt F .f32)
      = shapeCast S1x32 (m ((c.tc : Thread nD τ).loc main_arg9) : S32.Idx → Elt F .f32) shapeCasts_S32_S1x32 := by
  show StableHlo.after hostOps0 (fun b => m (c, b)) (Proc.devRef .tc main_v6) = _
  after_results
  rfl

theorem V_v6 (c : Dev nD) (d : Fin 32) :
    (V m c main_v6 : S1x32.Idx → Elt F .f32) (ix2 (0 : Fin 1) d)
      = (m ((c.tc : Thread nD τ).loc main_arg9) : S32.Idx → Elt F .f32) (ix1 d) := by
  rw [V_v6_eq]
  exact shapeCast_a_1a_apply _ _ (0 : Fin 1) d

theorem V_v7_eq (c : Dev nD) :
    (V m c main_v7 : S1x32.Idx → Elt F .f32)
      = shapeCast S1x32 (m ((c.tc : Thread nD τ).loc main_arg10) : S32.Idx → Elt F .f32) shapeCasts_S32_S1x32 := by
  show StableHlo.after hostOps0 (fun b => m (c, b)) (Proc.devRef .tc main_v7) = _
  after_results
  rfl

theorem V_v7 (c : Dev nD) (d : Fin 32) :
    (V m c main_v7 : S1x32.Idx → Elt F .f32) (ix2 (0 : Fin 1) d)
      = (m ((c.tc : Thread nD τ).loc main_arg10) : S32.Idx → Elt F .f32) (ix1 d) := by
  rw [V_v7_eq]
  exact shapeCast_a_1a_apply _ _ (0 : Fin 1) d

end Cert.KernelIdeal.HostPrefix

end
-- ==== Proof.KernelRun.lean ====
/-
  From the blocks to the result array, and the kernel program's run.

  Grid point `t` stages trajectories `8 t … 8 t + 7` of the state array and the whole of every other operand (the
  transposed matrices and the parameter rows as the host lines before the call leave them), and writes back rows
  `8 t … 8 t + 7` of a 256 x 1 column. Each written entry is the joint log-density of its trajectory; the 32 blocks
  tile the column, so the column ends holding every trajectory's log-density, and the host line after the call
  reshapes the column to the vector of 256 results.
-/
import proofs.«140382_j88235808129391_1_alg».proof.Proof.TripSum
import proofs.«140382_j88235808129391_1_alg».proof.Proof.HostPrefix
import proofs.«140382_j88235808129391_1_alg».proof.Proof.LibVectorReads
import proofs.«140382_j88235808129391_1_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

/-- The windows' block indices at every grid point: the state window and the output window move with the point along
    their first axis, every other window stays at block zero. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0) :=
  (by decide +kernel : ∀ t : Fin grid0.N, _)

/-! ## Each window's block, read off the argument arrays -/

/-- The state block at point `t` is trajectories `8 t … 8 t + 7`. -/
theorem iblk0_apply (c : Dev nD) (t : Fin cfg0.N) (b : Fin 8) (s : Fin 4097) (d : Fin 32) (r : Fin 256)
    (hr : r.val = t.val * 8 + b.val) :
    (iblk m c 0 t : Vec Ideal S8x4097x32 .f32) (ix3 b s d)
      = ((m ((c.tc : Thread nD τ).loc main_arg0)) : S256x4097x32.Idx → EReal) (ix3 r s d) := by
  obtain ⟨⟨e0, e1, e2⟩, -, -, -, -, -, -, -, -, -, -, -⟩ := idx_facts t
  unfold iblk
  rw [View.read_apply]
  show V m c main_arg0 _ = _
  rw [V_main_arg0]
  refine congrArg ((m ((c.tc : Thread nD τ).loc main_arg0)) : S256x4097x32.Idx → EReal) (funext fun a => Fin.ext ?_)
  match a with
  | ⟨0, _⟩ => show win0_0.index t (0 : Fin 3) * 8 + 1 * b.val = r.val; rw [e0, hr]; omega
  | ⟨1, _⟩ => show win0_0.index t (1 : Fin 3) * 4097 + 1 * s.val = s.val; rw [e1]; omega
  | ⟨2, _⟩ => show win0_0.index t (2 : Fin 3) * 32 + 1 * d.val = d.val; rw [e2]; omega

theorem iblk1_apply (c : Dev nD) (t : Fin cfg0.N) (p : Fin 4096) (q : Fin 16) :
    (iblk m c 1 t : Vec Ideal S4096x16 .f32) (ix2 p q) = ((m ((c.tc : Thread nD τ).loc main_arg1)) : S4096x16.Idx → EReal) (ix2 p q) := by
  obtain ⟨-, ⟨e0, e1⟩, -, -, -, -, -, -, -, -, -, -⟩ := idx_facts t
  have e : ((cfg0.win 1).blk t).view.emb (ix2 p q) = ix2 p q := funext fun a => Fin.ext (by
    match a with
    | ⟨0, _⟩ => show win0_1.index t (0 : Fin 2) * 4096 + 1 * p.val = p.val; rw [e0]; omega
    | ⟨1, _⟩ => show win0_1.index t (1 : Fin 2) * 16 + 1 * q.val = q.val; rw [e1]; omega)
  unfold iblk
  rw [View.read_apply]
  show V m c main_arg1 _ = _
  rw [e]
  exact congrFun (V_main_arg1 m c) (ix2 p q)

theorem iblk2_apply (c : Dev nD) (t : Fin cfg0.N) (p : Fin 4096) (q : Fin 32) :
    (iblk m c 2 t : Vec Ideal S4096x32 .f32) (ix2 p q) = ((m ((c.tc : Thread nD τ).loc main_arg2)) : S4096x32.Idx → EReal) (ix2 p q) := by
  obtain ⟨-, -, ⟨e0, e1⟩, -, -, -, -, -, -, -, -, -⟩ := idx_facts t
  have e : ((cfg0.win 2).blk t).view.emb (ix2 p q) = ix2 p q := funext fun a => Fin.ext (by
    match a with
    | ⟨0, _⟩ => show win0_2.index t (0 : Fin 2) * 4096 + 1 * p.val = p.val; rw [e0]; omega
    | ⟨1, _⟩ => show win0_2.index t (1 : Fin 2) * 32 + 1 * q.val = q.val; rw [e1]; omega)
  unfold iblk
  rw [View.read_apply]
  show V m c main_arg2 _ = _
  rw [e]
  exact congrFun (V_main_arg2 m c) (ix2 p q)

theorem iblk3_apply (c : Dev nD) (t : Fin cfg0.N) (p : Fin 32) (q : Fin 32) :
    (iblk m c 3 t : Vec Ideal S32x32 .f32) (ix2 p q) = ((m ((c.tc : Thread nD τ).loc main_arg3)) : S32x32.Idx → EReal) (ix2 q p) := by
  obtain ⟨-, -, -, ⟨e0, e1⟩, -, -, -, -, -, -, -, -⟩ := idx_facts t
  have e : ((cfg0.win 3).blk t).view.emb (ix2 p q) = ix2 p q := funext fun a => Fin.ext (by
    match a with
    | ⟨0, _⟩ => show win0_3.index t (0 : Fin 2) * 32 + 1 * p.val = p.val; rw [e0]; omega
    | ⟨1, _⟩ => show win0_3.index t (1 : Fin 2) * 32 + 1 * q.val = q.val; rw [e1]; omega)
  unfold iblk
  rw [View.read_apply]
  show V m c main_v0 _ = _
  rw [e]
  exact Cert.KernelIdeal.HostPrefix.V_v0 m c p q

theorem iblk4_apply (c : Dev nD) (t : Fin cfg0.N) (p : Fin 16) (q : Fin 32) :
    (iblk m c 4 t : Vec Ideal S16x32 .f32) (ix2 p q) = ((m ((c.tc : Thread nD τ).loc main_arg4)) : S32x16.Idx → EReal) (ix2 q p) := by
  obtain ⟨-, -, -, -, ⟨e0, e1⟩, -, -, -, -, -, -, -⟩ := idx_facts t
  have e : ((cfg0.win 4).blk t).view.emb (ix2 p q) = ix2 p q := funext fun a => Fin.ext (by
    match a with
    | ⟨0, _⟩ => show win0_4.index t (0 : Fin 2) * 16 + 1 * p.val = p.val; rw [e0]; omega
    | ⟨1, _⟩ => show win0_4.index t (1 : Fin 2) * 32 + 1 * q.val = q.val; rw [e1]; omega)
  unfold iblk
  rw [View.read_apply]
  show V m c main_v2 _ = _
  rw [e]
  exact Cert.KernelIdeal.HostPrefix.V_v2 m c p q

theorem iblk5_apply (c : Dev nD) (t : Fin cfg0.N) (p : Fin 32) (q : Fin 32) :
    (iblk m c 5 t : Vec Ideal S32x32 .f32) (ix2 p q) = ((m ((c.tc : Thread nD τ).loc main_arg6)) : S32x32.Idx → EReal) (ix2 q p) := by
  obtain ⟨-, -, -, -, -, ⟨e0, e1⟩, -, -, -, -, -, -⟩ := idx_facts t
  have e : ((cfg0.win 5).blk t).view.emb (ix2 p q) = ix2 p q := funext fun a => Fin.ext (by
    match a with
    | ⟨0, _⟩ => show win0_5.index t (0 : Fin 2) * 32 + 1 * p.val = p.val; rw [e0]; omega
    | ⟨1, _⟩ => show win0_5.index t (1 : Fin 2) * 32 + 1 * q.val = q.val; rw [e1]; omega)
  unfold iblk
  rw [View.read_apply]
  show V m c main_v1 _ = _
  rw [e]
  exact Cert.KernelIdeal.HostPrefix.V_v1 m c p q

theorem iblk6_apply (c : Dev nD) (t : Fin cfg0.N) (p : Fin 16) (q : Fin 32) :
    (iblk m c 6 t : Vec Ideal S16x32 .f32) (ix2 p q) = ((m ((c.tc : Thread nD τ).loc main_arg7)) : S32x16.Idx → EReal) (ix2 q p) := by
  obtain ⟨-, -, -, -, -, -, ⟨e0, e1⟩, -, -, -, -, -⟩ := idx_facts t
  have e : ((cfg0.win 6).blk t).view.emb (ix2 p q) = ix2 p q := funext fun a => Fin.ext (by
    match a with
    | ⟨0, _⟩ => show win0_6.index t (0 : Fin 2) * 16 + 1 * p.val = p.val; rw [e0]; omega
    | ⟨1, _⟩ => show win0_6.index t (1 : Fin 2) * 32 + 1 * q.val = q.val; rw [e1]; omega)
  unfold iblk
  rw [View.read_apply]
  show V m c main_v3 _ = _
  rw [e]
  exact Cert.KernelIdeal.HostPrefix.V_v3 m c p q

theorem iblk7_apply (c : Dev nD) (t : Fin cfg0.N) (d : Fin 32) :
    (iblk m c 7 t : Vec Ideal S1x32 .f32) (ix2 (0 : Fin 1) d) = ((m ((c.tc : Thread nD τ).loc main_arg5)) : S32.Idx → EReal) (ix1 d) := by
  obtain ⟨-, -, -, -, -, -, -, ⟨e0, e1⟩, -, -, -, -⟩ := idx_facts t
  have e : ((cfg0.win 7).blk t).view.emb (ix2 (0 : Fin 1) d) = ix2 (0 : Fin 1) d := funext fun a => Fin.ext (by
    match a with
    | ⟨0, _⟩ => show win0_7.index t (0 : Fin 2) * 1 + 1 * 0 = 0; rw [e0]
    | ⟨1, _⟩ => show win0_7.index t (1 : Fin 2) * 32 + 1 * d.val = d.val; rw [e1]; omega)
  unfold iblk
  rw [View.read_apply]
  show V m c main_v4 _ = _
  rw [e]
  exact Cert.KernelIdeal.HostPrefix.V_v4 m c d

theorem iblk8_apply (c : Dev nD) (t : Fin cfg0.N) (d : Fin 32) :
    (iblk m c 8 t : Vec Ideal S1x32 .f32) (ix2 (0 : Fin 1) d) = ((m ((c.tc : Thread nD τ).loc main_arg8)) : S32.Idx → EReal) (ix1 d) := by
  obtain ⟨-, -, -, -, -, -, -, -, ⟨e0, e1⟩, -, -, -⟩ := idx_facts t
  have e : ((cfg0.win 8).blk t).view.emb (ix2 (0 : Fin 1) d) = ix2 (0 : Fin 1) d := funext fun a => Fin.ext (by
    match a with
    | ⟨0, _⟩ => show win0_8.index t (0 : Fin 2) * 1 + 1 * 0 = 0; rw [e0]
    | ⟨1, _⟩ => show win0_8.index t (1 : Fin 2) * 32 + 1 * d.val = d.val; rw [e1]; omega)
  unfold iblk
  rw [View.read_apply]
  show V m c main_v5 _ = _
  rw [e]
  exact Cert.KernelIdeal.HostPrefix.V_v5 m c d

theorem iblk9_apply (c : Dev nD) (t : Fin cfg0.N) (d : Fin 32) :
    (iblk m c 9 t : Vec Ideal S1x32 .f32) (ix2 (0 : Fin 1) d) = ((m ((c.tc : Thread nD τ).loc main_arg9)) : S32.Idx → EReal) (ix1 d) := by
  obtain ⟨-, -, -, -, -, -, -, -, -, ⟨e0, e1⟩, -, -⟩ := idx_facts t
  have e : ((cfg0.win 9).blk t).view.emb (ix2 (0 : Fin 1) d) = ix2 (0 : Fin 1) d := funext fun a => Fin.ext (by
    match a with
    | ⟨0, _⟩ => show win0_9.index t (0 : Fin 2) * 1 + 1 * 0 = 0; rw [e0]
    | ⟨1, _⟩ => show win0_9.index t (1 : Fin 2) * 32 + 1 * d.val = d.val; rw [e1]; omega)
  unfold iblk
  rw [View.read_apply]
  show V m c main_v6 _ = _
  rw [e]
  exact Cert.KernelIdeal.HostPrefix.V_v6 m c d

theorem iblk10_apply (c : Dev nD) (t : Fin cfg0.N) (d : Fin 32) :
    (iblk m c 10 t : Vec Ideal S1x32 .f32) (ix2 (0 : Fin 1) d) = ((m ((c.tc : Thread nD τ).loc main_arg10)) : S32.Idx → EReal) (ix1 d) := by
  obtain ⟨-, -, -, -, -, -, -, -, -, -, ⟨e0, e1⟩, -⟩ := idx_facts t
  have e : ((cfg0.win 10).blk t).view.emb (ix2 (0 : Fin 1) d) = ix2 (0 : Fin 1) d := funext fun a => Fin.ext (by
    match a with
    | ⟨0, _⟩ => show win0_10.index t (0 : Fin 2) * 1 + 1 * 0 = 0; rw [e0]
    | ⟨1, _⟩ => show win0_10.index t (1 : Fin 2) * 32 + 1 * d.val = d.val; rw [e1]; omega)
  unfold iblk
  rw [View.read_apply]
  show V m c main_v7 _ = _
  rw [e]
  exact Cert.KernelIdeal.HostPrefix.V_v7 m c d

/-! ## The column the call writes -/

/-- The 256 x 1 column of joint log-densities. -/
def Gcol (c : Dev nD) : S256x1.Idx → EReal := fun i =>
  Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix1 (i 0))

/-- What point `t` writes back is rows `8 t … 8 t + 7` of that column. -/
theorem flushed_eq (c : Dev nD) (t : Fin cfg0.N) :
    (dats m 0 c).flushed 11 t = ((cfg0.win 11).blk t).view.read (Elt Ideal) (Gcol m c) := by
  show (cfg0.win 11).cut (grid0.coords t) ((dats m 0 c).after 11 t) = _
  rw [after0_11]
  unfold outsAt0
  funext j
  obtain ⟨b, z, rfl⟩ : ∃ (b : Fin 8) (z : Fin 1), j = ix2 b z := ⟨j 0, j 1, eq_ix2 j⟩
  obtain rfl : z = 0 := Subsingleton.elim _ _
  obtain ⟨-, -, -, -, -, -, -, -, -, -, -, ⟨e0, e1⟩⟩ := idx_facts t
  have hr : (((cfg0.win 11).blk t).view.emb (ix2 b (0 : Fin 1)) 0).val = t.val * 8 + b.val := by
    show win0_11.index t (0 : Fin 2) * 8 + 1 * b.val = _
    rw [e0]; omega
  show out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 b (0 : Fin 1))
    = Gcol m c (((cfg0.win 11).blk t).view.emb (ix2 b (0 : Fin 1)))
  refine (block_value c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (iblk m c 9 t) (iblk m c 10 t) b).trans ?_
  unfold Gcol Cert.Spec.G
  have h0 : (fun (s : Fin 4097) (d : Fin 32) => (iblk m c 0 t : Vec Ideal S8x4097x32 .f32) (ix3 b s d))
      = fun s d => ((m ((c.tc : Thread nD τ).loc main_arg0)) : S256x4097x32.Idx → EReal)
          (ix3 (((cfg0.win 11).blk t).view.emb (ix2 b (0 : Fin 1)) 0) s d) :=
    funext fun s => funext fun d => iblk0_apply m c t b s d _ hr
  rw [h0]
  simp only [iblk1_apply, iblk2_apply, iblk3_apply, iblk4_apply, iblk5_apply, iblk6_apply, iblk7_apply, iblk8_apply,
    iblk9_apply, iblk10_apply]

/-- An index of the column is in point `t`'s block iff each coordinate is in the block's range on its axis. -/
theorem mem_blk (t : Fin cfg0.N) (i : S256x1.Idx) :
    i ∈ ((cfg0.win 11).blk t).view.set ↔ ∀ a : Fin 2, win0_11.index t a * S8x1.size a ≤ (i a).val
      ∧ (i a).val < win0_11.index t a * S8x1.size a + S8x1.size a := by
  show i ∈ ((View.whole main_v8).slice (win0_11.rect t)).set ↔ _
  rw [View.set_slice_whole, Rect.mem_set_unit]
  exact Iff.rfl

/-- Row `r` of the column is written back by point `r / 8`. -/
theorem cover (i : S256x1.Idx) :
    ∃ t : Fin cfg0.N, (cfg0.win 11).flush t = true ∧ i ∈ ((cfg0.win 11).blk t).view.set := by
  have h0 : (i 0).val < 256 := (i 0).isLt
  have h1 : (i 1).val < 1 := (i 1).isLt
  have hN : cfg0.N = 32 := N_0
  have ht : (i 0).val / 8 < cfg0.N := by rw [hN]; omega
  refine ⟨⟨(i 0).val / 8, ht⟩, flush0_11 _, ?_⟩
  rw [mem_blk]
  obtain ⟨-, -, -, -, -, -, -, -, -, -, -, ⟨e0, e1⟩⟩ := idx_facts ⟨(i 0).val / 8, ht⟩
  intro a
  match a with
  | ⟨0, _⟩ =>
    show win0_11.index ⟨(i 0).val / 8, ht⟩ (0 : Fin 2) * 8 ≤ (i 0).val
      ∧ (i 0).val < win0_11.index ⟨(i 0).val / 8, ht⟩ (0 : Fin 2) * 8 + 8
    rw [e0]; show (i 0).val / 8 * 8 ≤ (i 0).val ∧ (i 0).val < (i 0).val / 8 * 8 + 8; omega
  | ⟨1, _⟩ =>
    show win0_11.index ⟨(i 0).val / 8, ht⟩ (1 : Fin 2) * 1 ≤ (i 1).val
      ∧ (i 1).val < win0_11.index ⟨(i 0).val / 8, ht⟩ (1 : Fin 2) * 1 + 1
    rw [e1]; omega

/-- The column after the call. -/
theorem final (c : Dev nD) : (dats m 0 c).arrAt 11 cfg0.N = Gcol m c :=
  (dats m 0 c).arrAt_eq_of_cover 11 (Gcol m c) (fun t _ => flushed_eq m c t) (cover)

/-! ## The host line after the call, and the run -/

/-- The result vector: the column reshaped. -/
theorem tail_eq (c : Dev nD) :
    Pipeline.afterTail₀ cfgs (dats m) 0 (V0 m) [hostOps1] c main_v9
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Pipeline.afterTail₀
  show StableHlo.after hostOps1 _ (Proc.devRef .tc main_v9) = _
  after_results
  funext i
  obtain ⟨r, rfl⟩ : ∃ r : Fin 256, i = ix1 r := ⟨i 0, eq_ix1 i⟩
  show shapeCast S256 (Pipeline.withArrays spec0 c (V0 m c) (fun w => (dats m 0 c).arrAt w cfg0.N)
      (Proc.devRef .tc main_v8)) shapeCasts_S256x1_S256 (ix1 r) = _
  rw [show Pipeline.withArrays spec0 c (V0 m c) (fun w => (dats m 0 c).arrAt w cfg0.N) (Proc.devRef .tc main_v8)
      = Gcol m c from (Pipeline.withArrays_arr spec0 launch0.win.arr_inj c _ _ 11).trans (final m c)]
  rw [Cert.LibVectorReads.shapeCast_a1_a_apply]
  rfl

/-- THE KERNEL PROGRAM'S RUN: it ends with the result vector at the specification of the arguments, and the
    arguments unchanged. -/
theorem run : θ_run defs (onTc (τ := τ) (main (F := Ideal))) ⟨m, fun _ => 0, ρ⟩ fun r => ∀ c : Dev nD,
      r.2.mem ((c.tc : Thread nD τ).loc main_v9) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨((h c).2 main_v9 (Pipeline.mem_restRefs_of main_v9 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩)
    (run_main m ρ)

end Cert.KernelIdeal.KValue

end
-- ==== Proof.RefObs.lean ====
/-
  The observation term of the reference program at the exact-arithmetic values.

  The reference computes, for trajectory b and step t, the mean  C x_{t+1} + Du u_t  as two contractions (one over the
  32 state coordinates, one over the 16 input coordinates, the second against the transposed matrix), subtracts it from
  the observation y_t, squares, scales by exp (-log_r), adds log_r and the literal log 2pi, sums over the 32
  coordinates starting from zero, and multiplies by the literal -1/2.  Read one operation at a time this is the
  diagonal Gaussian log-density of the specification, with the same operations in the same order.
-/
import proofs.«140382_j88235808129391_1_alg».proof.Proof.Gen.ReferenceIdeal.Read
import proofs.«140382_j88235808129391_1_alg».proof.Proof.Spec

noncomputable section

open scoped BigOperators

namespace Cert.RefBridge

open Idealize.ShloMosaic Idealize.ShloMosaic.ValueIdx Cert.ReferenceIdeal Cert.ReferenceIdeal.Read Cert.Spec

/-- Coordinate i of the observation mean of trajectory b at step t: row i of C against the state x_{t+1} (the slice
    that drops the first state reads position 1 + t) plus row i of Du against the input u_t. -/
theorem ref_obs_mean (x0 : (⟨S256x4097x32, .f32⟩ : BufTy).Contents (Elt Ideal))
    (x1 : (⟨S4096x16, .f32⟩ : BufTy).Contents (Elt Ideal)) (x6 : (⟨S32x32, .f32⟩ : BufTy).Contents (Elt Ideal))
    (x7 : (⟨S32x16, .f32⟩ : BufTy).Contents (Elt Ideal)) (b : Fin 256) (t : Fin 4096) (i : Fin 32) :
    val_main_v47 (F := Ideal) x0 x1 x6 x7 (ix3 b t i)
      = affine (fun j => x6 (ix2 i j)) (fun j => x0 (ix3 b t.succ j)) (fun q => x7 (ix2 i q))
          (fun q => x1 (ix2 t q)) := by
  have e1 : ∀ k : Fin 32, idx_main_v20 (lidx_main_v42 (ix3 b t i) k) = ix3 b t.succ k := fun k =>
    funext fun a => Fin.ext (by
      match a with
      | ⟨0, _⟩ => rfl
      | ⟨1, _⟩ => exact Nat.add_comm 1 t.val
      | ⟨2, _⟩ => rfl)
  have e2 : ∀ k : Fin 32, ridx_main_v42 (ix3 b t i) k = ix2 i k := fun k =>
    funext fun a => Fin.ext (by
      match a with
      | ⟨0, _⟩ => rfl
      | ⟨1, _⟩ => rfl)
  have e3 : ∀ k : Fin 16, lidx_main_v44 (idx_main_v45 (idx_main_v46 (ix3 b t i))) k = ix2 t k := fun k =>
    funext fun a => Fin.ext (by
      match a with
      | ⟨0, _⟩ => rfl
      | ⟨1, _⟩ => rfl)
  have e4 : ∀ k : Fin 16, idx_main_v43 (ridx_main_v44 (idx_main_v45 (idx_main_v46 (ix3 b t i))) k) = ix2 i k :=
    fun k => funext fun a => Fin.ext (by
      match a with
      | ⟨0, _⟩ => rfl
      | ⟨1, _⟩ => rfl)
  rw [val_main_v47_apply, val_main_v42_apply, val_main_v46_apply, val_main_v45_apply, val_main_v44_apply]
  simp only [val_main_v20_apply, val_main_v43_apply, e1, e2, e3, e4, Ideal.addf_def]
  rfl

/-- The observation term: entry (b, t) of the reference's second per-step array is the log-density of y_t under the
    Gaussian with mean C x_{t+1} + Du u_t and log-variance log_r. -/
theorem ref_obs (x0 : (⟨S256x4097x32, .f32⟩ : BufTy).Contents (Elt Ideal))
    (x1 : (⟨S4096x16, .f32⟩ : BufTy).Contents (Elt Ideal)) (x2 : (⟨S4096x32, .f32⟩ : BufTy).Contents (Elt Ideal))
    (x6 : (⟨S32x32, .f32⟩ : BufTy).Contents (Elt Ideal)) (x7 : (⟨S32x16, .f32⟩ : BufTy).Contents (Elt Ideal))
    (x8 : (⟨S32, .f32⟩ : BufTy).Contents (Elt Ideal)) (b : Fin 256) (t : Fin 4096) :
    val_main_v64 (F := Ideal) x0 x1 x2 x6 x7 x8 (ix2 b t)
      = glp (fun d => x2 (ix2 t d))
          (fun i => affine (fun j => x6 (ix2 i j)) (fun j => x0 (ix3 b t.succ j)) (fun q => x7 (ix2 i q))
            (fun q => x1 (ix2 t q)))
          (fun d => x8 (ix1 d)) := by
  have e1 : ∀ d : Fin 32, idx_main_v62 (ix2 b t) d = ix3 b t d := fun d =>
    funext fun a => Fin.ext (by
      match a with
      | ⟨0, _⟩ => rfl
      | ⟨1, _⟩ => rfl
      | ⟨2, _⟩ => rfl)
  have e2 : ∀ d : Fin 32, idx_main_v48 (idx_main_v49 (ix3 b t d)) = ix2 t d := fun d =>
    funext fun a => Fin.ext (by
      match a with
      | ⟨0, _⟩ => rfl
      | ⟨1, _⟩ => rfl)
  have e3 : ∀ d : Fin 32, idx_main_v54 (idx_main_v55 (ix3 b t d)) = ix1 d := fun d =>
    funext fun a => Fin.ext (by
      match a with
      | ⟨0, _⟩ => rfl)
  have e4 : ∀ d : Fin 32, idx_main_v57 (idx_main_v58 (ix3 b t d)) = ix1 d := fun d =>
    funext fun a => Fin.ext (by
      match a with
      | ⟨0, _⟩ => rfl)
  rw [val_main_v64_apply, val_main_v63_apply, val_main_cst_7_apply, val_main_v62_apply, val_main_cst_6_apply]
  simp only [e1, val_main_v61_apply, val_main_v59_apply, val_main_v56_apply, val_main_v51_apply,
    val_main_v50_apply, val_main_v49_apply, val_main_v48_apply, val_main_v55_apply, val_main_v54_apply,
    val_main_v53_apply, val_main_v52_apply, val_main_v58_apply, val_main_v57_apply, val_main_v60_apply,
    val_main_cst_5_apply, e2, e3, e4, ref_obs_mean, Ideal.ofBits_def, Ideal.addf_def, Ideal.subf_def,
    Ideal.mulf_def, Ideal.hostUnary_exp_def, Ideal.hostNegf_def, Ideal.negf_def, Ideal.ofBits_zero_f32, zero_add]
  rfl

end Cert.RefBridge

end
-- ==== Proof.RefTerms.lean ====
/-
  The reference program's two Gaussian terms, read at an index of the exact-arithmetic instance: the initial-state
  term of trajectory `b` and the transition term of trajectory `b` at step `t`, each as the diagonal Gaussian
  log-density `glp` of the specification.
-/
import proofs.«140382_j88235808129391_1_alg».proof.Proof.Gen.ReferenceIdeal.Read
import proofs.«140382_j88235808129391_1_alg».proof.Proof.Spec

noncomputable section

open scoped BigOperators

namespace Cert.RefBridge

open Idealize.ShloMosaic Idealize.ShloMosaic.ValueIdx Cert.ReferenceIdeal Cert.ReferenceIdeal.Read Cert.Spec

/-- Reading the initial-state slice: row `b`, coordinate `k` of the reshaped first state is `x0 b 0 k`. -/
theorem idx_x0_first (b : Fin 256) (k : Fin 32) :
    idx_main_v0 (idx_main_v1 (idx_main_v16 (ix1 b) k)) = ix3 b (0 : Fin 4097) k :=
  funext fun a => Fin.ext (by
    match a with
    | ⟨0, _⟩ => show (b.val * 32 + k.val) / 32 = b.val; omega
    | ⟨1, _⟩ => rfl
    | ⟨2, _⟩ => show (b.val * 32 + k.val) % 32 = k.val; omega)

/-- A vector of 32 entries broadcast along the rows of a 256 x 32 array is read at the column: the mean. -/
theorem idx_row_mu (b : Fin 256) (k : Fin 32) :
    idx_main_v2 (idx_main_v3 (idx_main_v16 (ix1 b) k)) = ix1 k :=
  funext fun a => Fin.ext (by match a with | ⟨0, _⟩ => rfl)

/-- The same for the reciprocal variance. -/
theorem idx_row_prec (b : Fin 256) (k : Fin 32) :
    idx_main_v8 (idx_main_v9 (idx_main_v16 (ix1 b) k)) = ix1 k :=
  funext fun a => Fin.ext (by match a with | ⟨0, _⟩ => rfl)

/-- The same for the log-variance. -/
theorem idx_row_lv (b : Fin 256) (k : Fin 32) :
    idx_main_v11 (idx_main_v12 (idx_main_v16 (ix1 b) k)) = ix1 k :=
  funext fun a => Fin.ext (by match a with | ⟨0, _⟩ => rfl)

/-- The initial-state term of trajectory `b`: operations %0 … %18 compute
    `-1/2 * sum_d ((x_0 - mu0)^2 * exp (-ls0) + ls0 + log 2pi)` in exactly the order of `glp`. -/
theorem ref_lp0 (x0 : (⟨S256x4097x32, .f32⟩ : BufTy).Contents (Elt Ideal)) (x9 x10 : (⟨S32, .f32⟩ : BufTy).Contents (Elt Ideal)) (b : Fin 256) :
    val_main_v18 (F := Ideal) x0 x9 x10 (ix1 b)
      = glp (fun d => x0 (ix3 b (0 : Fin 4097) d)) (fun d => x9 (ix1 d)) (fun d => x10 (ix1 d)) := by
  rw [val_main_v18_apply, val_main_v17_apply, val_main_cst_1_apply, val_main_v16_apply, val_main_cst_0_apply]
  simp only [val_main_v15_apply, val_main_v14_apply, val_main_cst_apply, val_main_v13_apply, val_main_v12_apply,
    val_main_v11_apply, val_main_v10_apply, val_main_v9_apply, val_main_v8_apply, val_main_v7_apply, val_main_v6_apply,
    val_main_v5_apply, val_main_v4_apply, val_main_v3_apply, val_main_v2_apply, val_main_v1_apply, val_main_v0_apply,
    idx_x0_first, idx_row_mu, idx_row_prec, idx_row_lv,
    Ideal.ofBits_def, Ideal.addf_def, Ideal.subf_def, Ideal.mulf_def, Ideal.hostUnary_exp_def, Ideal.hostNegf_def,
    Ideal.negf_def, Ideal.ofBits_zero_f32, zero_add]
  rfl

/-! ## The transition term -/

/-- The summand index of the transition term's sum over coordinates. -/
theorem idx_sum_trans (b : Fin 256) (t : Fin 4096) (k : Fin 32) :
    idx_main_v39 (ix2 b t) k = ix3 b t k :=
  funext fun a => Fin.ext (by match a with | ⟨0, _⟩ => rfl | ⟨1, _⟩ => rfl | ⟨2, _⟩ => rfl)

/-- The slice of states `1 … 4096` at step `t` is state `t + 1`. -/
theorem idx_x0_succ (b : Fin 256) (t : Fin 4096) (k : Fin 32) :
    idx_main_v20 (ix3 b t k) = ix3 b t.succ k :=
  funext fun a => Fin.ext (by
    match a with
    | ⟨0, _⟩ => rfl
    | ⟨1, _⟩ => show 1 + t.val = t.val + 1; omega
    | ⟨2, _⟩ => rfl)

/-- The slice of states `0 … 4095` at step `t` is state `t`, read at the contracted coordinate. -/
theorem idx_x0_cast (b : Fin 256) (t : Fin 4096) (i j : Fin 32) :
    idx_main_v19 (lidx_main_v21 (ix3 b t i) j) = ix3 b t.castSucc j :=
  funext fun a => Fin.ext (by match a with | ⟨0, _⟩ => rfl | ⟨1, _⟩ => rfl | ⟨2, _⟩ => rfl)

/-- The transition matrix is read at row `i`, the contracted column. -/
theorem idx_A (b : Fin 256) (t : Fin 4096) (i j : Fin 32) :
    ridx_main_v21 (ix3 b t i) j = ix2 i j :=
  funext fun a => Fin.ext (by match a with | ⟨0, _⟩ => rfl | ⟨1, _⟩ => rfl)

/-- The input of step `t` at the contracted coordinate. -/
theorem idx_u (b : Fin 256) (t : Fin 4096) (i : Fin 32) (q : Fin 16) :
    lidx_main_v23 (idx_main_v24 (idx_main_v25 (ix3 b t i))) q = ix2 t q :=
  funext fun a => Fin.ext (by match a with | ⟨0, _⟩ => rfl | ⟨1, _⟩ => rfl)

/-- The transposed input matrix is the input matrix at row `i`, the contracted column. -/
theorem idx_Bu (b : Fin 256) (t : Fin 4096) (i : Fin 32) (q : Fin 16) :
    idx_main_v22 (ridx_main_v23 (idx_main_v24 (idx_main_v25 (ix3 b t i))) q) = ix2 i q :=
  funext fun a => Fin.ext (by match a with | ⟨0, _⟩ => rfl | ⟨1, _⟩ => rfl)

/-- The reciprocal variance broadcast over trajectories and steps is read at the coordinate. -/
theorem idx_prec_trans (b : Fin 256) (t : Fin 4096) (k : Fin 32) :
    idx_main_v31 (idx_main_v32 (ix3 b t k)) = ix1 k :=
  funext fun a => Fin.ext (by match a with | ⟨0, _⟩ => rfl)

/-- The same for the log-variance. -/
theorem idx_lv_trans (b : Fin 256) (t : Fin 4096) (k : Fin 32) :
    idx_main_v34 (idx_main_v35 (ix3 b t k)) = ix1 k :=
  funext fun a => Fin.ext (by match a with | ⟨0, _⟩ => rfl)

/-- The transition mean (operation %26) of trajectory `b` at step `t`, coordinate `i`: row `i` of the transition
    matrix against state `t` plus row `i` of the input matrix against input `t`. -/
theorem ref_mean (x0 : (⟨S256x4097x32, .f32⟩ : BufTy).Contents (Elt Ideal)) (x1 : (⟨S4096x16, .f32⟩ : BufTy).Contents (Elt Ideal))
    (x3 : (⟨S32x32, .f32⟩ : BufTy).Contents (Elt Ideal)) (x4 : (⟨S32x16, .f32⟩ : BufTy).Contents (Elt Ideal))
    (b : Fin 256) (t : Fin 4096) (i : Fin 32) :
    val_main_v26 (F := Ideal) x0 x1 x3 x4 (ix3 b t i)
      = affine (fun j => x3 (ix2 i j)) (fun j => x0 (ix3 b t.castSucc j)) (fun q => x4 (ix2 i q)) (fun q => x1 (ix2 t q)) := by
  rw [val_main_v26_apply, val_main_v21_apply, val_main_v25_apply, val_main_v24_apply, val_main_v23_apply]
  simp only [val_main_v19_apply, val_main_v22_apply, idx_x0_cast, idx_A, idx_u, idx_Bu, Ideal.addf_def]
  rfl

/-- The transition term of trajectory `b` at step `t`: operations %19 … %41 compute
    `-1/2 * sum_d ((x_{t+1} - mean)^2 * exp (-lq) + lq + log 2pi)` in exactly the order of `glp`. -/
theorem ref_trans (x0 : (⟨S256x4097x32, .f32⟩ : BufTy).Contents (Elt Ideal)) (x1 : (⟨S4096x16, .f32⟩ : BufTy).Contents (Elt Ideal))
    (x3 : (⟨S32x32, .f32⟩ : BufTy).Contents (Elt Ideal)) (x4 : (⟨S32x16, .f32⟩ : BufTy).Contents (Elt Ideal))
    (x5 : (⟨S32, .f32⟩ : BufTy).Contents (Elt Ideal)) (b : Fin 256) (t : Fin 4096) :
    val_main_v41 (F := Ideal) x0 x1 x3 x4 x5 (ix2 b t)
      = glp (fun d => x0 (ix3 b t.succ d))
          (fun i => affine (fun j => x3 (ix2 i j)) (fun j => x0 (ix3 b t.castSucc j)) (fun q => x4 (ix2 i q)) (fun q => x1 (ix2 t q)))
          (fun d => x5 (ix1 d)) := by
  rw [val_main_v41_apply, val_main_v40_apply, val_main_cst_4_apply, val_main_v39_apply, val_main_cst_3_apply]
  simp only [idx_sum_trans, val_main_v38_apply, val_main_v37_apply, val_main_cst_2_apply, val_main_v36_apply,
    val_main_v35_apply, val_main_v34_apply, val_main_v33_apply, val_main_v32_apply, val_main_v31_apply,
    val_main_v30_apply, val_main_v29_apply, val_main_v28_apply, val_main_v27_apply, val_main_v20_apply, ref_mean,
    idx_x0_succ, idx_prec_trans, idx_lv_trans,
    Ideal.ofBits_def, Ideal.addf_def, Ideal.subf_def, Ideal.mulf_def, Ideal.hostUnary_exp_def, Ideal.hostNegf_def,
    Ideal.negf_def, Ideal.ofBits_zero_f32, zero_add]
  rfl

end Cert.RefBridge

end
-- ==== Proof.RefTotal.lean ====
/-
  The whole reference program at the exact-arithmetic values is the specification.

  The reference adds, for each trajectory b, the initial-state term to the sum over the 4096 steps (started from zero)
  of the transition term plus the observation term.  Each of the three terms is the specification's diagonal Gaussian
  log-density, so entry b of the result is the joint log-density of trajectory b.
-/
import proofs.«140382_j88235808129391_1_alg».proof.Proof.RefObs
import proofs.«140382_j88235808129391_1_alg».proof.Proof.RefTerms
import proofs.«140382_j88235808129391_1_alg».proof.Proof.Spec

noncomputable section

open scoped BigOperators

namespace Cert.RefBridge

open Idealize.ShloMosaic Idealize.ShloMosaic.ValueIdx Cert.ReferenceIdeal Cert.ReferenceIdeal.Read Cert.Spec

/-- Entry b of the reference's result is the joint log-density of trajectory b: the initial-state term plus the sum
    over the steps, from zero, of the transition term plus the observation term. -/
theorem ref_is_spec (x0 : (⟨S256x4097x32, .f32⟩ : BufTy).Contents (Elt Ideal))
    (x1 : (⟨S4096x16, .f32⟩ : BufTy).Contents (Elt Ideal)) (x2 : (⟨S4096x32, .f32⟩ : BufTy).Contents (Elt Ideal))
    (x3 : (⟨S32x32, .f32⟩ : BufTy).Contents (Elt Ideal)) (x4 : (⟨S32x16, .f32⟩ : BufTy).Contents (Elt Ideal))
    (x5 : (⟨S32, .f32⟩ : BufTy).Contents (Elt Ideal)) (x6 : (⟨S32x32, .f32⟩ : BufTy).Contents (Elt Ideal))
    (x7 : (⟨S32x16, .f32⟩ : BufTy).Contents (Elt Ideal)) (x8 x9 x10 : (⟨S32, .f32⟩ : BufTy).Contents (Elt Ideal)) :
    val_main_v67 (F := Ideal) x0 x1 x2 x3 x4 x5 x6 x7 x8 x9 x10 = Cert.Spec.G x0 x1 x2 x3 x4 x5 x6 x7 x8 x9 x10 := by
  funext i
  obtain ⟨b, rfl⟩ : ∃ b : Fin 256, i = ix1 b := ⟨i 0, eq_ix1 i⟩
  have e1 : ∀ k : Fin 4096, idx_main_v66 (ix1 b) k = ix2 b k := fun k =>
    funext fun a => Fin.ext (by
      match a with
      | ⟨0, _⟩ => rfl
      | ⟨1, _⟩ => rfl)
  rw [val_main_v67_apply, val_main_v66_apply, val_main_cst_8_apply]
  simp only [e1, val_main_v65_apply, ref_lp0, ref_trans, ref_obs, Ideal.ofBits_def, Ideal.addf_def,
    Ideal.ofBits_zero_f32, zero_add]
  rfl

end Cert.RefBridge

end
-- ==== Proof.lean ====
/-
  Two programs for the joint log-density of 256 trajectories of a linear-Gaussian state-space model
  (4097 states of 32 coordinates each, 4096 shared inputs and observations), equal as extended reals.

  The reference evaluates, for every trajectory, the first-state term and then the transition and observation terms
  of all 4096 steps at once, and sums them. The kernel works on 8 trajectories per grid point: it evaluates the
  first-state term, then walks the steps 128 at a time in a loop of 32 trips that carries the running total (the
  state and input products on the matrix unit, into a zero accumulator), and writes the 8 totals; a host line
  reshapes the 256 x 1 column of totals to the result vector. In exact arithmetic both compute, entry by entry, the
  same expression in the same order, except that the kernel's sum over the 4096 steps is grouped in 32 blocks of
  128 — and a finite sum in a commutative monoid does not depend on the grouping. No finiteness of the inputs is
  needed: nothing is distributed, cancelled or reordered across a product.

  The modules: `Spec` (the quantity, as one function of the argument arrays); `RefTerms`, `RefObs`, `RefTotal`
  (the reference's operations read at an index are that function); `PayNext`, `PayTrans`, `PayObs`, `PayInit`
  (the kernel body's arithmetic read at an index); `RunFinds`, `BlockReads`, `TripSum` (the block the body stores:
  the loop's carried value by induction over its trips, and the regrouping of the sum); `HostPrefix`, `KernelRun`
  (the transposes and reshapes before the call, the blocks tiling the column, the reshape after it, and the
  kernel program's run). The three frame claims are the generated frame certificates and the reference's
  generated run; the idealization rewrote nothing, so its claim is trivial.
-/
import proofs.«140382_j88235808129391_1_alg».proof.Defs
import proofs.«140382_j88235808129391_1_alg».proof.Proof.Gen.Kernel
import proofs.«140382_j88235808129391_1_alg».proof.Proof.Gen.Kernel.Skeleton
import proofs.«140382_j88235808129391_1_alg».proof.Proof.Gen.Kernel.Loops
import proofs.«140382_j88235808129391_1_alg».proof.Proof.Gen.Kernel.Launch
import proofs.«140382_j88235808129391_1_alg».proof.Proof.Gen.Kernel.Points
import proofs.«140382_j88235808129391_1_alg».proof.Proof.Gen.Kernel.Frame
import proofs.«140382_j88235808129391_1_alg».proof.Proof.Gen.KernelIdeal
import proofs.«140382_j88235808129391_1_alg».proof.Proof.Gen.KernelIdeal.Skeleton
import proofs.«140382_j88235808129391_1_alg».proof.Proof.Gen.KernelIdeal.Loops
import proofs.«140382_j88235808129391_1_alg».proof.Proof.Gen.KernelIdeal.Launch
import proofs.«140382_j88235808129391_1_alg».proof.Proof.Gen.KernelIdeal.Points
import proofs.«140382_j88235808129391_1_alg».proof.Proof.Gen.KernelIdeal.Frame
import proofs.«140382_j88235808129391_1_alg».proof.Proof.Gen.ReferenceIdeal
import proofs.«140382_j88235808129391_1_alg».proof.Proof.Gen.Pre_finite_inputs
import proofs.«140382_j88235808129391_1_alg».proof.Proof.Gen.ReferenceIdeal.Run
import proofs.«140382_j88235808129391_1_alg».proof.Proof.Gen.ReferenceIdeal.Read
import proofs.«140382_j88235808129391_1_alg».proof.Proof.KernelRun
import proofs.«140382_j88235808129391_1_alg».proof.Proof.RefTotal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, both programs end with the result vector at the specification of
    those arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.KValue.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7, a8, a9, a10⟩ := hagree c
  rw [(h c).1, Cert.ReferenceIdeal.Read.val_main_v67_eq, Cert.RefBridge.ref_is_spec, a0, a1, a2, a3, a4, a5, a6, a7, a8,
    a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
